-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x16 .f32) (main_arg10 : FVec F S16 .f32) (main_arg11 : FVec F S16x1 .f32) (main_arg12 : FVec F S1 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x1 .f32 := Host.absf main_arg11
  let main_cst_16 : FVec F S_ .f32 := constant S_ .f32 0x7F800000#32
  let main_v45 : FVec F S16x1 .f32 := broadcastInDim S16x1 ![] bcast_S_S16x1 main_cst_16
  let main_v46 : IVec S16x1 1 := cmpf .olt main_v44 main_v45
  let main_c_17 : IVec S_ 1 := constantI S_ 1 1#1
  let main_v47 : IVec S_ 1 := (fun x v => Host.reduce IntOp.andi x v reducesTo_S16x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x16 .f32) (main_arg10 : FVec F S16 .f32) (main_arg11 : FVec F S16x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x1600000 32) (main_arg2 : IVec S50000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x16 .f32) (main_arg10 : FVec F S16 .f32) (main_arg11 : FVec F S16x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S5000x128 : Shape := ⟨2, ![5000, 128]⟩
abbrev S5000x64 : Shape := ⟨2, ![5000, 64]⟩
abbrev S1650000x64 : Shape := ⟨2, ![1650000, 64]⟩
abbrev S1x64 : Shape := ⟨2, ![1, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S1x16 : Shape := ⟨2, ![1, 16]⟩
abbrev S1x1 : Shape := ⟨2, ![1, 1]⟩
abbrev S256x16 : Shape := ⟨2, ![256, 16]⟩

abbrev nBuf : Space → Nat
  | .hbm => 128
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S16x1, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S50000, .i32⟩
  | .hbm, ⟨18, _⟩ => ⟨S1650000, .i32⟩
  | .hbm, ⟨19, _⟩ => ⟨S1650000, .i32⟩
  | .hbm, ⟨20, _⟩ => ⟨S_, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S_, .i32⟩
  | .hbm, ⟨44, _⟩ => ⟨S1650000, .i32⟩
  | .hbm, ⟨45, _⟩ => ⟨S1650000, .i1⟩
  | .hbm, ⟨46, _⟩ => ⟨S_, .i32⟩
  | .hbm, ⟨47, _⟩ => ⟨S1650000, .i32⟩
  | .hbm, ⟨48, _⟩ => ⟨S1650000, .i32⟩
  | .hbm, ⟨49, _⟩ => ⟨S1650000, .i32⟩
  | .hbm, ⟨50, _⟩ => ⟨S1650000x1, .i32⟩
  | .hbm, ⟨51, _⟩ => ⟨S1650000, .f32⟩
  | .hbm, ⟨52, _⟩ => ⟨S1650000, .f32⟩
  | .hbm, ⟨53, _⟩ => ⟨S1650000x1, .f32⟩
  | .hbm, ⟨54, _⟩ => ⟨S50000x64, .f32⟩
  | .hbm, ⟨55, _⟩ => ⟨S_, .i32⟩
  | .hbm, ⟨56, _⟩ => ⟨S1650000, .i32⟩
  | .hbm, ⟨57, _⟩ => ⟨S1650000, .i1⟩
  | .hbm, ⟨58, _⟩ => ⟨S_, .i32⟩
  | .hbm, ⟨59, _⟩ => ⟨S1650000, .i32⟩
  | .hbm, ⟨60, _⟩ => ⟨S1650000, .i32⟩
  | .hbm, ⟨61, _⟩ => ⟨S1650000, .i32⟩
  | .hbm, ⟨62, _⟩ => ⟨S1650000x1, .i32⟩
  | .hbm, ⟨63, _⟩ => ⟨S1650000x64, .f32⟩
  | .hbm, ⟨64, _⟩ => ⟨S1650000x64, .f32⟩
  | .hbm, ⟨65, _⟩ => ⟨S1650000x64, .f32⟩
  | .hbm, ⟨66, _⟩ => ⟨S_, .f32⟩
  | .hbm, ⟨67, _⟩ => ⟨S50000x64, .f32⟩
  | .hbm, ⟨68, _⟩ => ⟨S1650000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S1650000, .i32⟩
  | .hbm, ⟨75, _⟩ => ⟨S1650000, .i1⟩
  | .hbm, ⟨76, _⟩ => ⟨S_, .i32⟩
  | .hbm, ⟨77, _⟩ => ⟨S1650000, .i32⟩
  | .hbm, ⟨78, _⟩ => ⟨S1650000, .i32⟩
  | .hbm, ⟨79, _⟩ => ⟨S1650000, .i32⟩
  | .hbm, ⟨80, _⟩ => ⟨S1650000x1, .i32⟩
  | .hbm, ⟨81, _⟩ => ⟨S1650000x64, .f32⟩
  | .hbm, ⟨82, _⟩ => ⟨S1650000x64, .f32⟩
  | .hbm, ⟨83, _⟩ => ⟨S1650000x64, .f32⟩
  | .hbm, ⟨84, _⟩ => ⟨S_, .f32⟩
  | .hbm, ⟨85, _⟩ => ⟨S50000x64, .f32⟩
  | .hbm, ⟨86, _⟩ => ⟨S1650000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .i32⟩
  | .hbm, ⟨92, _⟩ => ⟨S1650000, .i32⟩
  | .hbm, ⟨93, _⟩ => ⟨S1650000, .i1⟩
  | .hbm, ⟨94, _⟩ => ⟨S_, .i32⟩
  | .hbm, ⟨95, _⟩ => ⟨S1650000, .i32⟩
  | .hbm, ⟨96, _⟩ => ⟨S1650000, .i32⟩
  | .hbm, ⟨97, _⟩ => ⟨S1650000, .i32⟩
  | .hbm, ⟨98, _⟩ => ⟨S1650000x1, .i32⟩
  | .hbm, ⟨99, _⟩ => ⟨S1650000x64, .f32⟩
  | .hbm, ⟨100, _⟩ => ⟨S1650000x64, .f32⟩
  | .hbm, ⟨101, _⟩ => ⟨S1650000x64, .f32⟩
  | .hbm, ⟨102, _⟩ => ⟨S_, .f32⟩
  | .hbm, ⟨103, _⟩ => ⟨S50000x64, .f32⟩
  | .hbm, ⟨104, _⟩ => ⟨S1650000x1, .i32⟩
  | .hbm, ⟨105, _⟩ => ⟨S50000x64, .f32⟩
  | .hbm, ⟨106, _⟩ => ⟨S1x64, .f32⟩
  | .hbm, ⟨107, _⟩ => ⟨S50000x64, .f32⟩
  | .hbm, ⟨108, _⟩ => ⟨S_, .f32⟩
  | .hbm, ⟨109, _⟩ => ⟨S256x64, .f32⟩
  | .hbm, ⟨110, _⟩ => ⟨S50000x1, .i32⟩
  | .hbm, ⟨111, _⟩ => ⟨S256x64, .f32⟩
  | .hbm, ⟨112, _⟩ => ⟨S_, .f32⟩
  | .hbm, ⟨113, _⟩ => ⟨S50000, .f32⟩
  | .hbm, ⟨114, _⟩ => ⟨S_, .f32⟩
  | .hbm, ⟨115, _⟩ => ⟨S256, .f32⟩
  | .hbm, ⟨116, _⟩ => ⟨S50000x1, .i32⟩
  | .hbm, ⟨117, _⟩ => ⟨S256, .f32⟩
  | .hbm, ⟨118, _⟩ => ⟨S_, .f32⟩
  | .hbm, ⟨119, _⟩ => ⟨S_, .f32⟩
  | .hbm, ⟨120, _⟩ => ⟨S256, .f32⟩
  | .hbm, ⟨121, _⟩ => ⟨S256, .f32⟩
  | .hbm, ⟨122, _⟩ => ⟨S256x1, .f32⟩
  | .hbm, ⟨123, _⟩ => ⟨S256x64, .f32⟩
  | .hbm, ⟨124, _⟩ => ⟨S256x64, .f32⟩
  | .hbm, ⟨125, _⟩ => ⟨S1x16, .f32⟩
  | .hbm, ⟨126, _⟩ => ⟨S1x1, .f32⟩
  | .hbm, ⟨127, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S256x64, .f32⟩
  | .local _ .vmem, ⟨31, _⟩ => ⟨S64x16, .f32⟩
  | .local _ .vmem, ⟨32, _⟩ => ⟨S1x16, .f32⟩
  | .local _ .vmem, ⟨33, _⟩ => ⟨S16x1, .f32⟩
  | .local _ .vmem, ⟨34, _⟩ => ⟨S1x1, .f32⟩
  | .local _ .vmem, ⟨35, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_16 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_call1_v0 : Ref sig .tc := ⟨.hbm, 119, rfl⟩
abbrev main_call1_v1 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S16x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S16_S1x16 : S16.ShapeCasts S1x16
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x16_S256x16_1_0_0_1_n_n_wf : DotDims.WF S256x64 S64x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S16x1.size a ≤ S16x1.size a
  hwx6_3 : ∀ i : grid6.Coords, EltTy.bits .f32 = 32 ∨ (Rect.block (s := S16x1) S16x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1.size a ≤ S256x1.size a
  hwx6_5 : ∀ i : grid6.Coords, EltTy.bits .f32 = 32 ∨ (Rect.block (s := S256x1) S256x1.size (cc6_transform_5 i) (hinb6_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S256x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S16x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v89) S256x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S50000x64 : Shape := ⟨2, ![50000, 64]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩
abbrev S1x1 : Shape := ⟨2, ![1, 1]⟩

abbrev nBuf : Space → Nat
  | .hbm => 219
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x16, .f32⟩
  | 10 => ⟨S16, .f32⟩
  | 11 => ⟨S16x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S50000x64, .f32⟩
  | 18 => ⟨S50000, .i32⟩
  | 19 => ⟨S1650000, .i32⟩
  | 20 => ⟨S1650000, .i32⟩
  | 21 => ⟨S_, .f32⟩
  | 22 => ⟨S1650000, .f32⟩
  | 23 => ⟨S_, .f32⟩
  | 24 => ⟨S50000, .f32⟩
  | 25 => ⟨S1650000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S1650000, .i32⟩
  | 37 => ⟨S1650000, .i1⟩
  | 38 => ⟨S_, .i32⟩
  | 39 => ⟨S1650000, .i32⟩
  | 40 => ⟨S1650000, .i32⟩
  | 41 => ⟨S1650000, .i32⟩
  | 42 => ⟨S1650000x1, .i32⟩
  | 43 => ⟨S1650000, .f32⟩
  | 44 => ⟨S_, .i32⟩
  | 45 => ⟨S1650000, .i32⟩
  | 46 => ⟨S1650000, .i1⟩
  | 47 => ⟨S_, .i32⟩
  | 48 => ⟨S1650000, .i32⟩
  | 49 => ⟨S1650000, .i32⟩
  | 50 => ⟨S1650000, .i32⟩
  | 51 => ⟨S1650000x1, .i32⟩
  | 52 => ⟨S1650000, .f32⟩
  | 53 => ⟨S1650000, .f32⟩
  | 54 => ⟨S1650000x1, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000x64, .f32⟩
  | 64 => ⟨S1650000x64, .f32⟩
  | 65 => ⟨S1650000x64, .f32⟩
  | 66 => ⟨S_, .f32⟩
  | 67 => ⟨S50000x64, .f32⟩
  | 68 => ⟨S1650000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S50000, .i32⟩
  | 78 => ⟨S1650000, .i32⟩
  | 79 => ⟨S1650000, .i32⟩
  | 80 => ⟨S_, .f32⟩
  | 81 => ⟨S1650000, .f32⟩
  | 82 => ⟨S_, .f32⟩
  | 83 => ⟨S50000, .f32⟩
  | 84 => ⟨S1650000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000, .f32⟩
  | 112 => ⟨S1650000, .f32⟩
  | 113 => ⟨S1650000x1, .f32⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000x64, .f32⟩
  | 123 => ⟨S1650000x64, .f32⟩
  | 124 => ⟨S1650000x64, .f32⟩
  | 125 => ⟨S_, .f32⟩
  | 126 => ⟨S50000x64, .f32⟩
  | 127 => ⟨S1650000x1, .i32⟩
  | _ => ⟨S50000x128, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S50000, .i32⟩
  | 9 => ⟨S1650000, .i32⟩
  | 10 => ⟨S1650000, .i32⟩
  | 11 => ⟨S_, .f32⟩
  | 12 => ⟨S1650000, .f32⟩
  | 13 => ⟨S_, .f32⟩
  | 14 => ⟨S50000, .f32⟩
  | 15 => ⟨S1650000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S1650000, .i32⟩
  | 27 => ⟨S1650000, .i1⟩
  | 28 => ⟨S_, .i32⟩
  | 29 => ⟨S1650000, .i32⟩
  | 30 => ⟨S1650000, .i32⟩
  | 31 => ⟨S1650000, .i32⟩
  | 32 => ⟨S1650000x1, .i32⟩
  | 33 => ⟨S1650000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S1650000, .f32⟩
  | 44 => ⟨S1650000x1, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000x64, .f32⟩
  | 54 => ⟨S1650000x64, .f32⟩
  | 55 => ⟨S1650000x64, .f32⟩
  | 56 => ⟨S_, .f32⟩
  | 57 => ⟨S50000x64, .f32⟩
  | 58 => ⟨S1650000x1, .i32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .f32⟩
  | 67 => ⟨S256x64, .f32⟩
  | 68 => ⟨S50000x1, .i32⟩
  | 69 => ⟨S256x64, .f32⟩
  | 70 => ⟨S_, .f32⟩
  | 71 => ⟨S50000, .f32⟩
  | 72 => ⟨S_, .f32⟩
  | 73 => ⟨S256, .f32⟩
  | 74 => ⟨S50000x1, .i32⟩
  | 75 => ⟨S256, .f32⟩
  | 76 => ⟨S_, .f32⟩
  | 77 => ⟨S_, .f32⟩
  | 78 => ⟨S256, .f32⟩
  | 79 => ⟨S256, .f32⟩
  | 80 => ⟨S256x1, .f32⟩
  | 81 => ⟨S256x64, .f32⟩
  | 82 => ⟨S256x64, .f32⟩
  | 83 => ⟨S256x16, .f32⟩
  | 84 => ⟨S1x16, .f32⟩
  | 85 => ⟨S256x16, .f32⟩
  | 86 => ⟨S256x16, .f32⟩
  | 87 => ⟨S256x1, .f32⟩
  | 88 => ⟨S1x1, .f32⟩
  | 89 => ⟨S256x1, .f32⟩
  | 90 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_c_18 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_26 : Ref sig .tc := ⟨.hbm, 162, rfl⟩
abbrev main_v111 : Ref sig .tc := ⟨.hbm, 163, rfl⟩
abbrev main_v112 : Ref sig .tc := ⟨.hbm, 164, rfl⟩
abbrev main_c_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_c_28 : Ref sig .tc := ⟨.hbm, 173, rfl⟩
abbrev main_v120 : Ref sig .tc := ⟨.hbm, 174, rfl⟩
abbrev main_v121 : Ref sig .tc := ⟨.hbm, 175, rfl⟩
abbrev main_c_29 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call5_cst : Ref sig .tc := ⟨.hbm, 191, rfl⟩
abbrev main_call5_v0 : Ref sig .tc := ⟨.hbm, 192, rfl⟩
abbrev main_v135 : Ref sig .tc := ⟨.hbm, 193, rfl⟩
abbrev main_cst_31 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_32 : Ref sig .tc := ⟨.hbm, 198, rfl⟩
abbrev main_v139 : Ref sig .tc := ⟨.hbm, 199, rfl⟩
abbrev main_cst_33 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_34 : Ref sig .tc := ⟨.hbm, 204, rfl⟩
abbrev main_call6_v0 : Ref sig .tc := ⟨.hbm, 205, rfl⟩
abbrev main_call6_v1 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  dot_S50000x128_S128x64_S50000x64_1_0_0_1_n_n_wf : DotDims.WF S50000x128 S128x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x16_S256x16_1_0_0_1_n_n_wf : DotDims.WF S256x64 S64x16 S256x16 [1] [0] [0] [1] [] []
  dot_S256x16_S16x1_S256x1_1_0_0_1_n_n_wf : DotDims.WF S256x16 S16x1 S256x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.Spec.lean ====
/-
  The graph network both programs compute, as ONE composed function of the argument arrays at the ideal values.

  Nodes 0 … 49999 carry feature rows; the edge list gives 1600000 (source, target) pairs, and every node also gets a
  self loop, so there are 1650000 messages. With deg(v) the number of messages arriving at v and
  dinv(v) = deg(v)^(-1/2) where deg(v) > 0 (0 elsewhere), one layer is

      layer(h, W, b)(v, j) = max( b(j) + Σ_{messages e with target(e) = v} dinv(source e) · dinv(target e) · (h W)(source e, j), 0 ).

  Three layers (128 → 64 → 64 → 64 features), then each graph's mean over its nodes (a sum over the nodes of the
  graph divided by max(1, number of those nodes)), then two affine maps 64 → 16 → 1.

  The sums over messages and over a graph's nodes are the host's scatter-add, the reads of a node's row the host's
  gather, and a node id read as an index wraps a negative id once; these are kept as the operations themselves, never
  opened: both programs apply the very same ones to the same operands. What differs between the programs is only how
  the matrix products h W, the bias-and-clamp step and the two affine maps are carried out (row blocks of 5000 in
  one, whole arrays in the other), and each of those is a plain sum or a pointwise expression at the ideal values.
-/
import proofs.«143761_j21586505630436_1_alg».proof.Proof.Gen.ReferenceIdeal
import Idealize.ShloMosaic.PureOps.Ideal

noncomputable section

namespace Cert.GcnSpec

open Idealize.ShloMosaic Cert.ReferenceIdeal Cert.ReferenceIdeal.Gen

/-- The message sources: the edge list's first row, then every node once (its self loop). -/
def srcIdx (ei : IVec S2x1600000 32) : IVec S1650000 32 :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- The message targets: the edge list's second row, then every node once. -/
def dstIdx (ei : IVec S2x1600000 32) : IVec S1650000 32 :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- A list of node ids as a column of row indices: a negative id counts from the end (50000 is added once). -/
def wrapIdx (r : IVec S1650000 32) : IVec S1650000x1 32 :=
  broadcastInDim S1650000x1 ![0] bcast_S1650000_S1650000x1_0 (select (cmpi .slt r (broadcastInDim S1650000 ![] bcast_S_S1650000 (constantI S_ 32 0#32))) (addi r (broadcastInDim S1650000 ![] bcast_S_S1650000 (constantI S_ 32 50000#32))) r)

/-- deg(v): the number of messages whose target is v (a scatter-add of ones into zeros). -/
def deg (c : IVec S1650000 32) : FVec Ideal S50000 .f32 :=
  Host.scatterAdd scatter_S50000_S1650000x1_S1650000_n_0_0_1 (broadcastInDim S50000 ![] bcast_S_S50000 (constant S_ .f32 0x00000000#32)) (broadcastInDim S1650000x1 ![0] bcast_S1650000_S1650000x1_0 c) (broadcastInDim S1650000 ![] bcast_S_S1650000 (constant S_ .f32 0x3F800000#32))

/-- dinv(v) = deg(v)^(-1/2) where deg(v) > 0, and 0 elsewhere. -/
def dinv (c : IVec S1650000 32) : FVec Ideal S50000 .f32 :=
  select (cmpf .ogt (deg c) (broadcastInDim S50000 ![] bcast_S_S50000 (constant S_ .f32 0x00000000#32))) (Host.rsqrt (deg c)) (broadcastInDim S50000 ![] bcast_S_S50000 (id (constant S_ .f32 0x00000000#32)))

/-- The weight of each message, as a column: dinv(source) · dinv(target). -/
def normCol (r c : IVec S1650000 32) : FVec Ideal S1650000x1 .f32 :=
  broadcastInDim S1650000x1 ![0] bcast_S1650000_S1650000x1_0 (mulf (Host.gather gather_S50000_S1650000x1_S1650000_n_0_n_n_0_1_1 (dinv c) (wrapIdx r)) (Host.gather gather_S50000_S1650000x1_S1650000_n_0_n_n_0_1_1 (dinv c) (wrapIdx c)))

/-- Σ over the messages arriving at a node of weight · (the source's row of `h`), for a given weight column. -/
def aggregateWith (nrm : FVec Ideal S1650000x1 .f32) (r c : IVec S1650000 32) (h : FVec Ideal S50000x64 .f32) : FVec Ideal S50000x64 .f32 :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 c) (mulf (broadcastInDim S1650000x64 ![0, 1] bcast_S1650000x1_S1650000x64_0_1 nrm) (Host.gather gather_S50000x64_S1650000x1_S1650000x64_1_0_n_n_0_1_164 h (wrapIdx r)))

/-- The same with the weights dinv(source) · dinv(target). -/
def aggregate (r c : IVec S1650000 32) (h : FVec Ideal S50000x64 .f32) : FVec Ideal S50000x64 .f32 :=
  aggregateWith (normCol r c) r c h

/-- x W for 128 input features: entry (v, j) is Σ_k x(v, k) · W(k, j). -/
def proj128 (x : FVec Ideal S50000x128 .f32) (w : FVec Ideal S128x64 .f32) : FVec Ideal S50000x64 .f32 :=
  Host.dotGeneral dot_S50000x128_S128x64_S50000x64_1_0_0_1_n_n none x w

/-- h W for 64 input features. -/
def proj64 (x : FVec Ideal S50000x64 .f32) (w : FVec Ideal S64x64 .f32) : FVec Ideal S50000x64 .f32 :=
  Host.dotGeneral dot_S50000x64_S64x64_S50000x64_1_0_0_1_n_n none x w

/-- A bias vector as a one-row matrix. -/
def row64 (b : FVec Ideal S64 .f32) : FVec Ideal S1x64 .f32 := broadcastInDim S1x64 ![1] bcast_S64_S1x64_1 b
def row16 (b : FVec Ideal S16 .f32) : FVec Ideal S1x16 .f32 := broadcastInDim S1x16 ![1] bcast_S16_S1x16_1 b
def row1 (b : FVec Ideal S1 .f32) : FVec Ideal S1x1 .f32 := broadcastInDim S1x1 ![1] bcast_S1_S1x1_1 b

/-- max(a(v, j) + b(j), 0): the bias row added to every row, clamped below at zero. -/
def biasRelu (a : FVec Ideal S50000x64 .f32) (b : FVec Ideal S1x64 .f32) : FVec Ideal S50000x64 .f32 :=
  maximumf (addf a (broadcastInDim S50000x64 ![0, 1] bcast_S1x64_S50000x64_0_1 b)) (broadcastInDim S50000x64 ![] bcast_S_S50000x64 (constant S_ .f32 0x00000000#32))

/-- Each graph's mean row: the sum of its nodes' rows over max(1, the number of its nodes). -/
def pool (batch : IVec S50000 32) (h : FVec Ideal S50000x64 .f32) : FVec Ideal S256x64 .f32 :=
  Host.divf (Host.scatterAdd scatter_S256x64_S50000x1_S50000x64_1_0_0_1 (broadcastInDim S256x64 ![] bcast_S_S256x64 (constant S_ .f32 0x00000000#32)) (broadcastInDim S50000x1 ![0] bcast_S50000_S50000x1_0 batch) h) (broadcastInDim S256x64 ![0, 1] bcast_S256x1_S256x64_0_1 (broadcastInDim S256x1 ![0] bcast_S256_S256x1_0 (maximumf (broadcastInDim S256 ![] bcast_S_S256 (id (constant S_ .f32 0x3F800000#32))) (Host.scatterAdd scatter_S256_S50000x1_S50000_n_0_0_1 (broadcastInDim S256 ![] bcast_S_S256 (constant S_ .f32 0x00000000#32)) (broadcastInDim S50000x1 ![0] bcast_S50000_S50000x1_0 batch) (broadcastInDim S50000 ![] bcast_S_S50000 (constant S_ .f32 0x3F800000#32))))))

/-- The two affine maps: (g A + a) B + b, the biases as one-row matrices added to every row. -/
def head (g : FVec Ideal S256x64 .f32) (wl1 : FVec Ideal S64x16 .f32) (bl1 : FVec Ideal S1x16 .f32) (wl2 : FVec Ideal S16x1 .f32) (bl2 : FVec Ideal S1x1 .f32) : FVec Ideal S256x1 .f32 :=
  addf (Host.dotGeneral dot_S256x16_S16x1_S256x1_1_0_0_1_n_n none (addf (Host.dotGeneral dot_S256x64_S64x16_S256x16_1_0_0_1_n_n none g wl1) (broadcastInDim S256x16 ![0, 1] bcast_S1x16_S256x16_0_1 bl1)) wl2) (broadcastInDim S256x1 ![0, 1] bcast_S1x1_S256x1_0_1 bl2)

/-- The whole network. -/
def result (x : FVec Ideal S50000x128 .f32) (ei : IVec S2x1600000 32) (batch : IVec S50000 32)
    (W1 : FVec Ideal S128x64 .f32) (b1 : FVec Ideal S64 .f32) (W2 : FVec Ideal S64x64 .f32) (b2 : FVec Ideal S64 .f32)
    (W3 : FVec Ideal S64x64 .f32) (b3 : FVec Ideal S64 .f32) (Wl1 : FVec Ideal S64x16 .f32) (bl1 : FVec Ideal S16 .f32)
    (Wl2 : FVec Ideal S16x1 .f32) (bl2 : FVec Ideal S1 .f32) : FVec Ideal S256x1 .f32 :=
  head (pool batch
      (biasRelu (aggregate (srcIdx ei) (dstIdx ei) (proj64
        (biasRelu (aggregate (srcIdx ei) (dstIdx ei) (proj64
          (biasRelu (aggregate (srcIdx ei) (dstIdx ei) (proj128 x W1)) (row64 b1)) W2)) (row64 b2)) W3)) (row64 b3)))
    Wl1 (row16 bl1) Wl2 (row1 bl2)

end Cert.GcnSpec

end
-- ==== Proof.RefValue.lean ====
/-
  The reference program's result is the network of its launched arguments.

  Its run ends with the result buffer at the composed term of its host operations; that term IS the composition the
  specification spells (the same operations in the same order: three layers, each computing the message weights
  afresh from the edge list, the mean over each graph, the two affine maps), so unfolding the specification's
  definitions leaves the two sides the same term.
-/
import proofs.«143761_j21586505630436_1_alg».proof.Proof.RefRun
import proofs.«143761_j21586505630436_1_alg».proof.Proof.Spec

set_option maxRecDepth 16384

noncomputable section

namespace Cert.ReferenceIdeal.RefValue

open Idealize.ShloMosaic Idealize.ShloMosaic.TcCoe Idealize.SL.Sem Cert.ReferenceIdeal Cert.ReferenceIdeal.Gen Cert

set_option maxHeartbeats 4000000 in
theorem result_eq (m : (ℓ : Loc nD τ sig) → Buf (Elt Ideal) ℓ) (c : Dev nD) :
    Cert.ReferenceIdeal.ValueP.res_main_v154 (F := Ideal) m c
      = GcnSpec.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) := by
  unfold Cert.ReferenceIdeal.ValueP.res_main_v154
  unfold GcnSpec.result GcnSpec.head GcnSpec.pool GcnSpec.biasRelu GcnSpec.aggregate GcnSpec.aggregateWith GcnSpec.normCol
    GcnSpec.dinv GcnSpec.deg GcnSpec.wrapIdx GcnSpec.srcIdx GcnSpec.dstIdx GcnSpec.proj128 GcnSpec.proj64 GcnSpec.row64 GcnSpec.row16 GcnSpec.row1
  rfl

end Cert.ReferenceIdeal.RefValue

end
-- ==== Proof.RunValue.lean ====
/-
  The idealized kernel's run with its RESULT kept.

  The program is sixteen segments: stretches of host operations and seven kernel launches. The library's theorem for
  such a program gives, from any launch memory with zero counters, that every weakly fair execution terminates without
  a fault in a state where every buffer outside a kernel's scope holds the contents the segments compose to: the
  launch memory folded through each stretch's operations and, at each launch, the launched kernel's arrays replaced
  by what its grid points write back. The frame claim reads only the argument arrays off that state (no segment
  writes one). Here the same final state is read at one more buffer, the program's result, which therefore ends
  holding that fold's value at it.
-/
import proofs.«143761_j21586505630436_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of the program terminates, nothing faulting, with the result buffer at the value the
    segments compose to (the fold `W16` at it) and the argument arrays as launched. -/
theorem run : θ_run defs (onTc (τ := τ) (main (F := F))) ⟨m, fun _ => 0, ρ⟩ (fun r => ∀ c : Dev nD,
      r.2.mem ((c.tc : Thread nD τ).loc main_v89) = W16 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v89 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.RunValue

end
-- ==== Proof.LibKeepdims.lean ====
/-
  Reading the keepdims layout moves at an index, over arbitrary extents.

  A row statistic kept as a column is built from three moves: a sum along the lanes of an `[a, b]` array into a
  vector of `a` entries, that vector viewed as an `[a, 1]` column, and the column spread back over `b` lanes.  Read
  at row `p`, the first is the sum of the row's `b` entries, the second reads the vector at `p` whatever the unit
  coordinate, and the third reads the column at `(p, 0)` whatever the lane.  The fourth move is the other
  orientation: a vector of `c` entries viewed as a `[1, c]` one-row matrix reads, along its row, as the vector.
  Each is stated at coordinates built by `ix1` / `ix2`, for any element type where no arithmetic is involved.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Lib.Keepdims

open Idealize.ShloMosaic Idealize.ShloMosaic.ValueIdx

variable {α : Type}

/-- A vector of `a` entries viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` lanes reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The sum along the lanes of an `[a, b]` tile, read at row `p`, is the sum of that row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- A vector of `c` entries viewed as a `[1, c]` one-row matrix reads, at `(0, q)`, the vector at `q`. -/
theorem shapeCast_a_1a_apply {c : ℕ} (b : (⟨1, ![c]⟩ : Shape).Idx → α)
    (h : (⟨1, ![c]⟩ : Shape).ShapeCasts ⟨2, ![1, c]⟩) (q : Fin c) :
    shapeCast (⟨2, ![1, c]⟩ : Shape) b h (ix2 0 q) = b (ix1 q) := by
  show shapeCast (⟨1 + 1, Matrix.vecCons 1 ![c]⟩ : Shape) b h (ix2 0 q) = b (ix1 q)
  rw [shapeCast_addUnit_apply]
  exact congrArg b (funext fun a => by match a with | ⟨0, _⟩ => rfl)

end Cert.Lib.Keepdims

end
-- ==== Proof.RowView.lean ====
/-
  A vector of `n` entries as a one-row matrix, two ways.

  One program re-lays the bias vector as a `[1, n]` matrix (the same entries in row-major order); the other
  broadcasts it along a new leading axis of extent one. Both are the matrix whose entry `(0, q)` is the vector's
  entry `q`, so they are one function.
-/
import proofs.«143761_j21586505630436_1_alg».proof.Proof.LibKeepdims

noncomputable section

namespace Cert.RowView

open Idealize.ShloMosaic Idealize.ShloMosaic.ValueIdx

variable {α : Type}

/-- Re-laid or broadcast, a vector becomes the same one-row matrix: entry `(0, q)` is the vector's entry `q`. -/
theorem shapeCast_eq_broadcastInDim {n : ℕ} (b : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast (⟨2, ![1, n]⟩ : Shape) b h = broadcastInDim (⟨2, ![1, n]⟩ : Shape) ![1] h' b := by
  funext j
  obtain ⟨p, q, rfl⟩ : ∃ (p : Fin 1) (q : Fin n), j = ix2 p q := ⟨j 0, j 1, eq_ix2 j⟩
  have hp : p = 0 := Fin.ext (by omega)
  subst hp
  rw [Cert.Lib.Keepdims.shapeCast_a_1a_apply]
  symm
  refine broadcastInDim_apply ![1] h' b (ix2 0 q) (ix1 q) fun a => ?_
  match a with
  | ⟨0, _⟩ =>
    show q.val = if n = 1 then 0 else q.val
    split
    · have := q.isLt; omega
    · rfl

end Cert.RowView

end
-- ==== Proof.ProjRegions.lean ====
import proofs.«143761_j21586505630436_1_alg».proof.Proof.Gen.KernelIdeal.Frame
import proofs.«143761_j21586505630436_1_alg».proof.Proof.Spec
import Idealize.ShloMosaic.Lib.Pipeline.Value
import Idealize.ShloMosaic.Lib.ValueIdx
import Idealize.ShloMosaic.PureOps.Ideal.Laws

/-!
  The three matrix-product launches, each read as ONE function of the arrays it finds.

  A launch walks ten grid points; point t holds rows 5000·t … 5000·t + 4999 of the left operand x and the whole
  right operand w, and writes back the same rows of the product. At the extended reals the block product at
  (r, j) is Σ_k xblock(r, k) · w(k, j), and the whole-array product at row v = 5000·t + r is Σ_k x(v, k) · w(k, j):
  the same sum over the same contraction index, since a block's element sits in the array at block index × block
  size + its own coordinate. The ten row blocks tile the 50000 rows (row v lies in block v / 5000), so the array
  the launch leaves is the whole product.
-/

noncomputable section

namespace Cert.KernelIdeal.ProjRegions

open Idealize.ShloMosaic Idealize.ShloMosaic.TcCoe Idealize.SL.Sem Cert.KernelIdeal Cert.KernelIdeal.Gen

/-- The zero offsets of a whole-buffer access, however they are spelt. -/
theorem hz : (![0, 0] : Fin 2 → Nat) = fun _ => 0 := funext fun a => by fin_cases a <;> rfl

/-! ### The operand indices of the [5000x128] × [128x64] product -/

theorem lhs0_k128 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_k128 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs0_k128 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs1_k128 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- Row `i 0` of the left operand at contraction index `k`. -/
abbrev lidx_k128 (i : S5000x64.Idx) (k : Fin 128) : S5000x128.Idx := fun a => match a with
  | ⟨0, _⟩ => ⟨(i 0).val, (i 0).isLt⟩
  | ⟨1, _⟩ => ⟨k.val, k.isLt⟩
/-- Column `i 1` of the right operand at contraction index `k`. -/
abbrev ridx_k128 (i : S5000x64.Idx) (k : Fin 128) : S128x64.Idx := fun a => match a with
  | ⟨0, _⟩ => ⟨k.val, k.isLt⟩
  | ⟨1, _⟩ => ⟨(i 1).val, (i 1).isLt⟩
/-- The record's contraction sum, re-indexed by the one contracted coordinate. -/
theorem sum_k128 (x : S5000x128.Idx → EReal) (w : S128x64.Idx → EReal) (i : S5000x64.Idx) :
    (∑ q : dot_S5000x128_S128x64_S5000x64_1_0_0_1_n_n.contr.Idx, x (dot_S5000x128_S128x64_S5000x64_1_0_0_1_n_n.lhsIdx i q) * w (dot_S5000x128_S128x64_S5000x64_1_0_0_1_n_n.rhsIdx i q))
      = ∑ k : Fin 128, x (lidx_k128 i k) * w (ridx_k128 i k) := by
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = lidx_k128 i k := funext fun a => Fin.ext (by
    match a with
    | ⟨0, _⟩ => exact lhs0_k128 _ _
    | ⟨1, _⟩ => exact (lhs1_k128 _ _).trans hk)
  have er : dot_S5000x128_S128x64_S5000x64_1_0_0_1_n_n.rhsIdx i ((ValueIdx.contrEquiv1 dot_S5000x128_S128x64_S5000x64_1_0_0_1_n_n 128 rfl rfl).symm k) = ridx_k128 i k := funext fun a => Fin.ext (by
    match a with
    | ⟨0, _⟩ => exact (rhs0_k128 _ _).trans hk
    | ⟨1, _⟩ => exact rhs1_k128 _ _)
  rw [el, er]

/-! ### The operand indices of the [50000x128] × [128x64] product -/

theorem lhs0_r128 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem lhs1_r128 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem rhs0_r128 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem rhs1_r128 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl
/-- Row `i 0` of the left operand at contraction index `k`. -/
abbrev lidx_r128 (i : Cert.ReferenceIdeal.S50000x64.Idx) (k : Fin 128) : Cert.ReferenceIdeal.S50000x128.Idx := fun a => match a with
  | ⟨0, _⟩ => ⟨(i 0).val, (i 0).isLt⟩
  | ⟨1, _⟩ => ⟨k.val, k.isLt⟩
/-- Column `i 1` of the right operand at contraction index `k`. -/
abbrev ridx_r128 (i : Cert.ReferenceIdeal.S50000x64.Idx) (k : Fin 128) : Cert.ReferenceIdeal.S128x64.Idx := fun a => match a with
  | ⟨0, _⟩ => ⟨k.val, k.isLt⟩
  | ⟨1, _⟩ => ⟨(i 1).val, (i 1).isLt⟩
/-- The record's contraction sum, re-indexed by the one contracted coordinate. -/
theorem sum_r128 (x : Cert.ReferenceIdeal.S50000x128.Idx → EReal) (w : Cert.ReferenceIdeal.S128x64.Idx → EReal) (i : Cert.ReferenceIdeal.S50000x64.Idx) :
    (∑ q : Cert.ReferenceIdeal.dot_S50000x128_S128x64_S50000x64_1_0_0_1_n_n.contr.Idx, x (Cert.ReferenceIdeal.dot_S50000x128_S128x64_S50000x64_1_0_0_1_n_n.lhsIdx i q) * w (Cert.ReferenceIdeal.dot_S50000x128_S128x64_S50000x64_1_0_0_1_n_n.rhsIdx i q))
      = ∑ k : Fin 128, x (lidx_r128 i k) * w (ridx_r128 i k) := by
  rw [← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = lidx_r128 i k := funext fun a => Fin.ext (by
    match a with
    | ⟨0, _⟩ => exact lhs0_r128 _ _
    | ⟨1, _⟩ => exact (lhs1_r128 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = ridx_r128 i k := funext fun a => Fin.ext (by
    match a with
    | ⟨0, _⟩ => exact (rhs0_r128 _ _).trans hk
    | ⟨1, _⟩ => exact rhs1_r128 _ _)
  rw [el, er]

/-! ### The operand indices of the [5000x64] × [64x64] product -/

theorem lhs0_k64 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs1_k64 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs0_k64 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs1_k64 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- Row `i 0` of the left operand at contraction index `k`. -/
abbrev lidx_k64 (i : S5000x64.Idx) (k : Fin 64) : S5000x64.Idx := fun a => match a with
  | ⟨0, _⟩ => ⟨(i 0).val, (i 0).isLt⟩
  | ⟨1, _⟩ => ⟨k.val, k.isLt⟩
/-- Column `i 1` of the right operand at contraction index `k`. -/
abbrev ridx_k64 (i : S5000x64.Idx) (k : Fin 64) : S64x64.Idx := fun a => match a with
  | ⟨0, _⟩ => ⟨k.val, k.isLt⟩
  | ⟨1, _⟩ => ⟨(i 1).val, (i 1).isLt⟩
/-- The record's contraction sum, re-indexed by the one contracted coordinate. -/
theorem sum_k64 (x : S5000x64.Idx → EReal) (w : S64x64.Idx → EReal) (i : S5000x64.Idx) :
    (∑ q : dot_S5000x64_S64x64_S5000x64_1_0_0_1_n_n.contr.Idx, x (dot_S5000x64_S64x64_S5000x64_1_0_0_1_n_n.lhsIdx i q) * w (dot_S5000x64_S64x64_S5000x64_1_0_0_1_n_n.rhsIdx i q))
      = ∑ k : Fin 64, x (lidx_k64 i k) * w (ridx_k64 i k) := by
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = lidx_k64 i k := funext fun a => Fin.ext (by
    match a with
    | ⟨0, _⟩ => exact lhs0_k64 _ _
    | ⟨1, _⟩ => exact (lhs1_k64 _ _).trans hk)
  have er : dot_S5000x64_S64x64_S5000x64_1_0_0_1_n_n.rhsIdx i ((ValueIdx.contrEquiv1 dot_S5000x64_S64x64_S5000x64_1_0_0_1_n_n 64 rfl rfl).symm k) = ridx_k64 i k := funext fun a => Fin.ext (by
    match a with
    | ⟨0, _⟩ => exact (rhs0_k64 _ _).trans hk
    | ⟨1, _⟩ => exact rhs1_k64 _ _)
  rw [el, er]

/-! ### The operand indices of the [50000x64] × [64x64] product -/

theorem lhs0_r64 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem lhs1_r64 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem rhs0_r64 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rhs1_r64 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl
/-- Row `i 0` of the left operand at contraction index `k`. -/
abbrev lidx_r64 (i : Cert.ReferenceIdeal.S50000x64.Idx) (k : Fin 64) : Cert.ReferenceIdeal.S50000x64.Idx := fun a => match a with
  | ⟨0, _⟩ => ⟨(i 0).val, (i 0).isLt⟩
  | ⟨1, _⟩ => ⟨k.val, k.isLt⟩
/-- Column `i 1` of the right operand at contraction index `k`. -/
abbrev ridx_r64 (i : Cert.ReferenceIdeal.S50000x64.Idx) (k : Fin 64) : Cert.ReferenceIdeal.S64x64.Idx := fun a => match a with
  | ⟨0, _⟩ => ⟨k.val, k.isLt⟩
  | ⟨1, _⟩ => ⟨(i 1).val, (i 1).isLt⟩
/-- The record's contraction sum, re-indexed by the one contracted coordinate. -/
theorem sum_r64 (x : Cert.ReferenceIdeal.S50000x64.Idx → EReal) (w : Cert.ReferenceIdeal.S64x64.Idx → EReal) (i : Cert.ReferenceIdeal.S50000x64.Idx) :
    (∑ q : Cert.ReferenceIdeal.dot_S50000x64_S64x64_S50000x64_1_0_0_1_n_n.contr.Idx, x (Cert.ReferenceIdeal.dot_S50000x64_S64x64_S50000x64_1_0_0_1_n_n.lhsIdx i q) * w (Cert.ReferenceIdeal.dot_S50000x64_S64x64_S50000x64_1_0_0_1_n_n.rhsIdx i q))
      = ∑ k : Fin 64, x (lidx_r64 i k) * w (ridx_r64 i k) := by
  rw [← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx i ((ValueIdx.contrEquiv1 Cert.ReferenceIdeal.dot_S50000x64_S64x64_S50000x64_1_0_0_1_n_n 64 rfl rfl).symm k) = lidx_r64 i k := funext fun a => Fin.ext (by
    match a with
    | ⟨0, _⟩ => exact lhs0_r64 _ _
    | ⟨1, _⟩ => exact (lhs1_r64 _ _).trans hk)
  have er : Cert.ReferenceIdeal.dot_S50000x64_S64x64_S50000x64_1_0_0_1_n_n.rhsIdx i ((ValueIdx.contrEquiv1 Cert.ReferenceIdeal.dot_S50000x64_S64x64_S50000x64_1_0_0_1_n_n 64 rfl rfl).symm k) = ridx_r64 i k := funext fun a => Fin.ext (by
    match a with
    | ⟨0, _⟩ => exact (rhs0_r64 _ _).trans hk
    | ⟨1, _⟩ => exact rhs1_r64 _ _)
  rw [el, er]

variable (V : (c : Dev nD) → (b : Ref sig .tc) → Buf (Elt Ideal) ((c : Thread nD τ).loc b)) (c : Dev nD)

/-! ## Launch 0: x (50000 × 128) times W (128 × 64) -/

/-- The block product at an index: Σ_k xblock(r, k) · w(k, j). -/
theorem pay0_apply (x0 : Vec Ideal S5000x128 .f32) (x1 : Vec Ideal S128x64 .f32) (j : S5000x64.Idx) :
    k0_pay1 (F := Ideal) x0 x1 j = ∑ k : Fin 128, x0 (lidx_k128 j k) * x1 (ridx_k128 j k) := by
  unfold k0_pay1
  exact (Ideal.matmul_constant_zero_apply dot_S5000x128_S128x64_S5000x64_1_0_0_1_n_n none x0 x1 j).trans (sum_k128 x0 x1 j)

/-- The whole product at an index: Σ_k x(v, k) · w(k, j). -/
theorem proj128_apply (x : FVec Ideal Cert.ReferenceIdeal.S50000x128 .f32) (w : FVec Ideal Cert.ReferenceIdeal.S128x64 .f32)
    (i : Cert.ReferenceIdeal.S50000x64.Idx) :
    Cert.GcnSpec.proj128 x w i = ∑ k : Fin 128, x (lidx_r128 i k) * w (ridx_r128 i k) := by
  unfold Cert.GcnSpec.proj128
  simp only [Host.dotGeneral]
  rw [Ideal.dotGeneral_apply]
  exact sum_r128 x w i

/-- The printed index maps, decided over the grid: the left operand's row block moves with the output's, which is
    the grid point itself; every other block index is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every row block is some point's. -/
theorem idx_onto0 : ∀ q : Fin 10, ∃ t : Fin cfg0.N, win0_2.index t = ![q.val, 0] :=
  (by decide +kernel : ∀ q : Fin 10, ∃ t : Fin grid0.N, win0_2.index t = ![q.val, 0])

/-- WHAT POINT `t` WRITES BACK is block `t` of the whole product of the arrays the launch finds. -/
theorem flushed0_eq (t : Fin cfg0.N) :
    (dat0 (F := Ideal) V c).flushed 2 t
      = ((cfg0.win 2).blk t).view.read (Elt Ideal) (Cert.GcnSpec.proj128 (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts0 t
  funext j
  show k0_pay1 (F := Ideal) (iblk0 V c 0 t) (iblk0 V c 1 t) j
    = Cert.GcnSpec.proj128 (V c main_arg0) (V c main_arg3) (((cfg0.win 2).blk t).view.emb j)
  refine (pay0_apply _ _ j).trans (Eq.trans ?_ (proj128_apply _ _ _).symm)
  refine Finset.sum_congr rfl fun k _ => ?_
  have h0 : ((cfg0.win 0).blk t).view.emb (lidx_k128 j k) = lidx_r128 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ridx_k128 j k) = ridx_r128 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have key : ∀ (X : S50000x128.Idx → EReal) (W : S128x64.Idx → EReal),
      X (((cfg0.win 0).blk t).view.emb (lidx_k128 j k)) * W (((cfg0.win 1).blk t).view.emb (ridx_k128 j k))
        = X (lidx_r128 (((cfg0.win 2).blk t).view.emb j) k) * W (ridx_r128 (((cfg0.win 2).blk t).view.emb j) k) := by
    intro X W; rw [h0, h1]
  exact key _ _

/-- An index of the array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- The ten row blocks tile the array: row v lies in block v / 5000. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY launch 0 leaves: the whole product. -/
theorem region0 : (dat0 (F := Ideal) V c).arrAt 2 cfg0.N = Cert.GcnSpec.proj128 (V c main_arg0) (V c main_arg3) :=
  (dat0 (F := Ideal) V c).arrAt_eq_of_cover 2 (Cert.GcnSpec.proj128 (V c main_arg0) (V c main_arg3))
    (fun t _ => flushed0_eq V c t) cover0

/-! ## Launch 2: h (50000 × 64) times W (64 × 64) -/

/-- The block product at an index: Σ_k xblock(r, k) · w(k, j). -/
theorem pay2_apply (x0 : Vec Ideal S5000x64 .f32) (x1 : Vec Ideal S64x64 .f32) (j : S5000x64.Idx) :
    k2_pay1 (F := Ideal) x0 x1 j = ∑ k : Fin 64, x0 (lidx_k64 j k) * x1 (ridx_k64 j k) := by
  unfold k2_pay1
  rw [shapeCast_self]
  exact (Ideal.matmul_constant_zero_apply dot_S5000x64_S64x64_S5000x64_1_0_0_1_n_n none x0 x1 j).trans (sum_k64 x0 x1 j)

/-- The whole product at an index: Σ_k x(v, k) · w(k, j). -/
theorem proj64_apply (x : FVec Ideal Cert.ReferenceIdeal.S50000x64 .f32) (w : FVec Ideal Cert.ReferenceIdeal.S64x64 .f32)
    (i : Cert.ReferenceIdeal.S50000x64.Idx) :
    Cert.GcnSpec.proj64 x w i = ∑ k : Fin 64, x (lidx_r64 i k) * w (ridx_r64 i k) := by
  unfold Cert.GcnSpec.proj64
  simp only [Host.dotGeneral]
  rw [Ideal.dotGeneral_apply]
  exact sum_r64 x w i

/-- The printed index maps, decided over the grid: the left operand's row block moves with the output's, which is
    the grid point itself; every other block index is 0. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every row block is some point's. -/
theorem idx_onto2 : ∀ q : Fin 10, ∃ t : Fin cfg2.N, win2_2.index t = ![q.val, 0] :=
  (by decide +kernel : ∀ q : Fin 10, ∃ t : Fin grid2.N, win2_2.index t = ![q.val, 0])

/-- WHAT POINT `t` WRITES BACK is block `t` of the whole product of the arrays the launch finds. -/
theorem flushed2_eq (t : Fin cfg2.N) :
    (dat2 (F := Ideal) V c).flushed 2 t
      = ((cfg2.win 2).blk t).view.read (Elt Ideal) (Cert.GcnSpec.proj64 (V c main_v45) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts2 t
  funext j
  show k2_pay1 (F := Ideal) (iblk2 V c 0 t) (iblk2 V c 1 t) j
    = Cert.GcnSpec.proj64 (V c main_v45) (V c main_arg5) (((cfg2.win 2).blk t).view.emb j)
  refine (pay2_apply _ _ j).trans (Eq.trans ?_ (proj64_apply _ _ _).symm)
  refine Finset.sum_congr rfl fun k _ => ?_
  have h0 : ((cfg2.win 0).blk t).view.emb (lidx_k64 j k) = lidx_r64 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (ridx_k64 j k) = ridx_r64 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have key : ∀ (X : S50000x64.Idx → EReal) (W : S64x64.Idx → EReal),
      X (((cfg2.win 0).blk t).view.emb (lidx_k64 j k)) * W (((cfg2.win 1).blk t).view.emb (ridx_k64 j k))
        = X (lidx_r64 (((cfg2.win 2).blk t).view.emb j) k) * W (ridx_r64 (((cfg2.win 2).blk t).view.emb j) k) := by
    intro X W; rw [h0, h1]
  exact key _ _

/-- An index of the array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- The ten row blocks tile the array: row v lies in block v / 5000. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE ARRAY launch 2 leaves: the whole product. -/
theorem region2 : (dat2 (F := Ideal) V c).arrAt 2 cfg2.N = Cert.GcnSpec.proj64 (V c main_v45) (V c main_arg5) :=
  (dat2 (F := Ideal) V c).arrAt_eq_of_cover 2 (Cert.GcnSpec.proj64 (V c main_v45) (V c main_arg5))
    (fun t _ => flushed2_eq V c t) cover2

/-! ## Launch 4: h (50000 × 64) times W (64 × 64) -/

/-- The block product at an index: Σ_k xblock(r, k) · w(k, j). -/
theorem pay4_apply (x0 : Vec Ideal S5000x64 .f32) (x1 : Vec Ideal S64x64 .f32) (j : S5000x64.Idx) :
    k4_pay1 (F := Ideal) x0 x1 j = ∑ k : Fin 64, x0 (lidx_k64 j k) * x1 (ridx_k64 j k) := by
  unfold k4_pay1
  rw [shapeCast_self]
  exact (Ideal.matmul_constant_zero_apply dot_S5000x64_S64x64_S5000x64_1_0_0_1_n_n none x0 x1 j).trans (sum_k64 x0 x1 j)

/-- The printed index maps, decided over the grid: the left operand's row block moves with the output's, which is
    the grid point itself; every other block index is 0. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 9
    ∧ win4_2.index t (1 : Fin 2) = 0 :=
  (by decide +kernel : ∀ t : Fin grid4.N, _)

/-- Every row block is some point's. -/
theorem idx_onto4 : ∀ q : Fin 10, ∃ t : Fin cfg4.N, win4_2.index t = ![q.val, 0] :=
  (by decide +kernel : ∀ q : Fin 10, ∃ t : Fin grid4.N, win4_2.index t = ![q.val, 0])

/-- WHAT POINT `t` WRITES BACK is block `t` of the whole product of the arrays the launch finds. -/
theorem flushed4_eq (t : Fin cfg4.N) :
    (dat4 (F := Ideal) V c).flushed 2 t
      = ((cfg4.win 2).blk t).view.read (Elt Ideal) (Cert.GcnSpec.proj64 (V c main_v60) (V c main_arg7)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := idx_facts4 t
  funext j
  show k4_pay1 (F := Ideal) (iblk4 V c 0 t) (iblk4 V c 1 t) j
    = Cert.GcnSpec.proj64 (V c main_v60) (V c main_arg7) (((cfg4.win 2).blk t).view.emb j)
  refine (pay4_apply _ _ j).trans (Eq.trans ?_ (proj64_apply _ _ _).symm)
  refine Finset.sum_congr rfl fun k _ => ?_
  have h0 : ((cfg4.win 0).blk t).view.emb (lidx_k64 j k) = lidx_r64 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 64 + 1 * k.val = k.val; omega
  have h1 : ((cfg4.win 1).blk t).view.emb (ridx_k64 j k) = ridx_r64 (((cfg4.win 2).blk t).view.emb j) k := by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  have key : ∀ (X : S50000x64.Idx → EReal) (W : S64x64.Idx → EReal),
      X (((cfg4.win 0).blk t).view.emb (lidx_k64 j k)) * W (((cfg4.win 1).blk t).view.emb (ridx_k64 j k))
        = X (lidx_r64 (((cfg4.win 2).blk t).view.emb j) k) * W (ridx_r64 (((cfg4.win 2).blk t).view.emb j) k) := by
    intro X W; rw [h0, h1]
  exact key _ _

/-- An index of the array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- The ten row blocks tile the array: row v lies in block v / 5000. -/
theorem cover4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- THE ARRAY launch 4 leaves: the whole product. -/
theorem region4 : (dat4 (F := Ideal) V c).arrAt 2 cfg4.N = Cert.GcnSpec.proj64 (V c main_v60) (V c main_arg7) :=
  (dat4 (F := Ideal) V c).arrAt_eq_of_cover 2 (Cert.GcnSpec.proj64 (V c main_v60) (V c main_arg7))
    (fun t _ => flushed4_eq V c t) cover4

end Cert.KernelIdeal.ProjRegions

end
-- ==== Proof.ActRegions.lean ====
/-
  The three bias-and-clamp launches. Each takes a 50000 × 64 array `a` and a one-row array `b` (1 × 64) and leaves

      out(v, j) = max( a(v, j) + b(0, j), 0 )

  in its output array. The launch runs over ten grid points; point `t` loads rows 5000·t … 5000·t + 4999 of `a`
  and the whole row `b`, computes the expression on that block of rows, and writes the block back to the same rows
  of the output. The expression is pointwise in the row, so the block point `t` writes is the restriction to its rows of the
  whole-array expression, and the ten blocks tile the 50000 rows (row `v` belongs to block `v / 5000`). Hence the
  output array ends holding the whole-array expression. The zero is the same 32-bit word on both sides and is never
  evaluated.
-/
import proofs.«143761_j21586505630436_1_alg».proof.Proof.Gen.KernelIdeal.Frame
import proofs.«143761_j21586505630436_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.ActRegions

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

/-- The two zero offsets of a whole-block access, as the constant function. -/
theorem zeros2 : (![0, 0] : Fin 2 → Nat) = fun _ => 0 := funext fun a => by fin_cases a <;> rfl

/-- The whole-array expression at row `p`, column `q`: the entry plus the bias row's entry of that column (the row
    broadcast reads row 0, the scalar broadcast reads the zero word), clamped below at the zero word. -/
theorem biasRelu_apply (a : FVec Ideal Cert.ReferenceIdeal.S50000x64 .f32) (b : FVec Ideal Cert.ReferenceIdeal.S1x64 .f32) (p : Fin 50000) (q : Fin 64) :
    Cert.GcnSpec.biasRelu a b (ix2 p q) = max (a (ix2 p q) + b (ix2 (0 : Fin 1) q)) (Scalar.ofBits .f32 0x00000000#32) := by
  unfold Cert.GcnSpec.biasRelu
  rw [maximumf_apply, addf_apply]
  rw [broadcastInDim_apply _ _ b (ix2 p q) (ix2 (0 : Fin 1) q) (fun ax => by match ax with | ⟨0, _⟩ => rfl | ⟨1, _⟩ => rfl)]
  rfl

/-! ## Launch 1: the array `main_v43` plus the bias row `main_v44`, clamped at zero -/

/-- The body's value at row `p` of its block, column `q`: the block's entry plus the bias row's entry of that column,
    clamped below at the zero word. Both reshapes keep the shape, and the row broadcast reads row 0. -/
theorem pay1_apply (x0 : FVec Ideal S5000x64 .f32) (x1 : FVec Ideal S1x64 .f32) (p : Fin 5000) (q : Fin 64) :
    k1_pay1 x0 x1 (ix2 p q) = max (x0 (ix2 p q) + x1 (ix2 (0 : Fin 1) q)) (Scalar.ofBits .f32 0x00000000#32) := by
  unfold k1_pay1
  rw [maximumf_apply, addf_apply, broadcast_apply, shapeCast_self, shapeCast_self]
  rw [broadcastTo_1b_ab_apply]

/-- The block index maps over the ten grid points: point `t` reads and writes row block `t` (column block 0) of the
    two row-tiled arrays, and always block (0, 0) of the bias row. -/
theorem idx1 : ∀ t : Fin cfg1.N, t.val < 10 ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block 0 … 9 is some grid point's. -/
theorem onto1 : ∀ q0 : Fin 10, ∃ t : Fin cfg1.N, win1_2.index t (0 : Fin 2) = q0.val ∧ win1_2.index t (1 : Fin 2) = 0 :=
  (by decide +kernel : ∀ q0 : Fin 10, ∃ t : Fin grid1.N, win1_2.index t (0 : Fin 2) = q0.val ∧ win1_2.index t (1 : Fin 2) = 0)

/-- What grid point `t` writes back is rows 5000·t … 5000·t + 4999 of the bias-and-clamp of the whole arrays: entry
    (p, q) of the block sits at row 5000·t + p, column q, of the array, and the bias row is read whole. -/
theorem flushed1 (t : Fin cfg1.N) :
    (dat1 (F := Ideal) V c).flushed 2 t = ((cfg1.win 2).blk t).view.read (Elt Ideal) (Cert.GcnSpec.biasRelu (V c main_v43) (V c main_v44)) := by
  show (cfg1.win 2).cut (grid1.coords t) ((dat1 (F := Ideal) V c).after 2 t) = _
  rw [after1_2]
  unfold out1_2
  rw [View.canon_unit_zero zeros2]
  simp only [View.ld_unit_zero (S := S5000x64) zeros2, View.ld_unit_zero (S := S1x64) zeros2]
  obtain ⟨ht, e00, e01, e10, e11, e20, e21⟩ := idx1 t
  funext j
  obtain ⟨p, q, rfl⟩ : ∃ (p : Fin 5000) (q : Fin 64), j = ix2 p q := ⟨j 0, j 1, eq_ix2 (n0 := 5000) (n1 := 64) j⟩
  show k1_pay1 (iblk1 V c 0 t) (iblk1 V c 1 t) (ix2 p q) = Cert.GcnSpec.biasRelu (V c main_v43) (V c main_v44) (((cfg1.win 2).blk t).view.emb (ix2 p q))
  refine (pay1_apply _ _ p q).trans ?_
  -- a block's coordinate in the array is block index × block size + 1 × the coordinate inside the block
  have hE2 : ((cfg1.win 2).blk t).view.emb (ix2 p q) = ix2 (⟨t.val * 5000 + p.val, by have := p.isLt; omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  have hE0 : ((cfg1.win 0).blk t).view.emb (ix2 p q) = ix2 (⟨t.val * 5000 + p.val, by have := p.isLt; omega⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have hE1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  rw [hE2, biasRelu_apply]
  have h0 : iblk1 V c 0 t (ix2 p q) = V c main_v43 (ix2 (⟨t.val * 5000 + p.val, by have := p.isLt; omega⟩ : Fin 50000) q) := by
    show V c main_v43 (((cfg1.win 0).blk t).view.emb (ix2 p q)) = _
    rw [hE0]
  have h1 : iblk1 V c 1 t (ix2 (0 : Fin 1) q) = V c main_v44 (ix2 (0 : Fin 1) q) := by
    show V c main_v44 (((cfg1.win 1).blk t).view.emb (ix2 (0 : Fin 1) q)) = _
    rw [hE1]
  rw [h0, h1]

/-- An entry of the array is in point `t`'s block iff each of its coordinates is in the block's range on that axis. -/
theorem mem_blk1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row `v` of the array is written back by the grid point whose row block is `v / 5000`. -/
theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, q0, q1⟩ := onto1 ⟨(i 0).val / 5000, by omega⟩
  have q0' : win1_2.index t (0 : Fin 2) = (i 0).val / 5000 := q0
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The ten row blocks tile the array, so after the launch it holds the bias-and-clamp of the arrays the launch found. -/
theorem region1 : (dat1 (F := Ideal) V c).arrAt 2 cfg1.N = Cert.GcnSpec.biasRelu (V c main_v43) (V c main_v44) :=
  (dat1 (F := Ideal) V c).arrAt_eq_of_cover 2 (Cert.GcnSpec.biasRelu (V c main_v43) (V c main_v44)) (fun t _ => flushed1 V c t) cover1

/-! ## Launch 3: the array `main_v58` plus the bias row `main_v59`, clamped at zero -/

/-- The body's value at row `p` of its block, column `q`: the block's entry plus the bias row's entry of that column,
    clamped below at the zero word. Both reshapes keep the shape, and the row broadcast reads row 0. -/
theorem pay3_apply (x0 : FVec Ideal S5000x64 .f32) (x1 : FVec Ideal S1x64 .f32) (p : Fin 5000) (q : Fin 64) :
    k3_pay1 x0 x1 (ix2 p q) = max (x0 (ix2 p q) + x1 (ix2 (0 : Fin 1) q)) (Scalar.ofBits .f32 0x00000000#32) := by
  unfold k3_pay1
  rw [maximumf_apply, addf_apply, broadcast_apply, shapeCast_self, shapeCast_self]
  rw [broadcastTo_1b_ab_apply]

/-- The block index maps over the ten grid points: point `t` reads and writes row block `t` (column block 0) of the
    two row-tiled arrays, and always block (0, 0) of the bias row. -/
theorem idx3 : ∀ t : Fin cfg3.N, t.val < 10 ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every row block 0 … 9 is some grid point's. -/
theorem onto3 : ∀ q0 : Fin 10, ∃ t : Fin cfg3.N, win3_2.index t (0 : Fin 2) = q0.val ∧ win3_2.index t (1 : Fin 2) = 0 :=
  (by decide +kernel : ∀ q0 : Fin 10, ∃ t : Fin grid3.N, win3_2.index t (0 : Fin 2) = q0.val ∧ win3_2.index t (1 : Fin 2) = 0)

/-- What grid point `t` writes back is rows 5000·t … 5000·t + 4999 of the bias-and-clamp of the whole arrays: entry
    (p, q) of the block sits at row 5000·t + p, column q, of the array, and the bias row is read whole. -/
theorem flushed3 (t : Fin cfg3.N) :
    (dat3 (F := Ideal) V c).flushed 2 t = ((cfg3.win 2).blk t).view.read (Elt Ideal) (Cert.GcnSpec.biasRelu (V c main_v58) (V c main_v59)) := by
  show (cfg3.win 2).cut (grid3.coords t) ((dat3 (F := Ideal) V c).after 2 t) = _
  rw [after3_2]
  unfold out3_2
  rw [View.canon_unit_zero zeros2]
  simp only [View.ld_unit_zero (S := S5000x64) zeros2, View.ld_unit_zero (S := S1x64) zeros2]
  obtain ⟨ht, e00, e01, e10, e11, e20, e21⟩ := idx3 t
  funext j
  obtain ⟨p, q, rfl⟩ : ∃ (p : Fin 5000) (q : Fin 64), j = ix2 p q := ⟨j 0, j 1, eq_ix2 (n0 := 5000) (n1 := 64) j⟩
  show k3_pay1 (iblk3 V c 0 t) (iblk3 V c 1 t) (ix2 p q) = Cert.GcnSpec.biasRelu (V c main_v58) (V c main_v59) (((cfg3.win 2).blk t).view.emb (ix2 p q))
  refine (pay3_apply _ _ p q).trans ?_
  -- a block's coordinate in the array is block index × block size + 1 × the coordinate inside the block
  have hE2 : ((cfg3.win 2).blk t).view.emb (ix2 p q) = ix2 (⟨t.val * 5000 + p.val, by have := p.isLt; omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  have hE0 : ((cfg3.win 0).blk t).view.emb (ix2 p q) = ix2 (⟨t.val * 5000 + p.val, by have := p.isLt; omega⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have hE1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  rw [hE2, biasRelu_apply]
  have h0 : iblk3 V c 0 t (ix2 p q) = V c main_v58 (ix2 (⟨t.val * 5000 + p.val, by have := p.isLt; omega⟩ : Fin 50000) q) := by
    show V c main_v58 (((cfg3.win 0).blk t).view.emb (ix2 p q)) = _
    rw [hE0]
  have h1 : iblk3 V c 1 t (ix2 (0 : Fin 1) q) = V c main_v59 (ix2 (0 : Fin 1) q) := by
    show V c main_v59 (((cfg3.win 1).blk t).view.emb (ix2 (0 : Fin 1) q)) = _
    rw [hE1]
  rw [h0, h1]

/-- An entry of the array is in point `t`'s block iff each of its coordinates is in the block's range on that axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- Row `v` of the array is written back by the grid point whose row block is `v / 5000`. -/
theorem cover3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, q0, q1⟩ := onto3 ⟨(i 0).val / 5000, by omega⟩
  have q0' : win3_2.index t (0 : Fin 2) = (i 0).val / 5000 := q0
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The ten row blocks tile the array, so after the launch it holds the bias-and-clamp of the arrays the launch found. -/
theorem region3 : (dat3 (F := Ideal) V c).arrAt 2 cfg3.N = Cert.GcnSpec.biasRelu (V c main_v58) (V c main_v59) :=
  (dat3 (F := Ideal) V c).arrAt_eq_of_cover 2 (Cert.GcnSpec.biasRelu (V c main_v58) (V c main_v59)) (fun t _ => flushed3 V c t) cover3

/-! ## Launch 5: the array `main_v73` plus the bias row `main_v74`, clamped at zero -/

/-- The body's value at row `p` of its block, column `q`: the block's entry plus the bias row's entry of that column,
    clamped below at the zero word. Both reshapes keep the shape, and the row broadcast reads row 0. -/
theorem pay5_apply (x0 : FVec Ideal S5000x64 .f32) (x1 : FVec Ideal S1x64 .f32) (p : Fin 5000) (q : Fin 64) :
    k5_pay1 x0 x1 (ix2 p q) = max (x0 (ix2 p q) + x1 (ix2 (0 : Fin 1) q)) (Scalar.ofBits .f32 0x00000000#32) := by
  unfold k5_pay1
  rw [maximumf_apply, addf_apply, broadcast_apply, shapeCast_self, shapeCast_self]
  rw [broadcastTo_1b_ab_apply]

/-- The block index maps over the ten grid points: point `t` reads and writes row block `t` (column block 0) of the
    two row-tiled arrays, and always block (0, 0) of the bias row. -/
theorem idx5 : ∀ t : Fin cfg5.N, t.val < 10 ∧ win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every row block 0 … 9 is some grid point's. -/
theorem onto5 : ∀ q0 : Fin 10, ∃ t : Fin cfg5.N, win5_2.index t (0 : Fin 2) = q0.val ∧ win5_2.index t (1 : Fin 2) = 0 :=
  (by decide +kernel : ∀ q0 : Fin 10, ∃ t : Fin grid5.N, win5_2.index t (0 : Fin 2) = q0.val ∧ win5_2.index t (1 : Fin 2) = 0)

/-- What grid point `t` writes back is rows 5000·t … 5000·t + 4999 of the bias-and-clamp of the whole arrays: entry
    (p, q) of the block sits at row 5000·t + p, column q, of the array, and the bias row is read whole. -/
theorem flushed5 (t : Fin cfg5.N) :
    (dat5 (F := Ideal) V c).flushed 2 t = ((cfg5.win 2).blk t).view.read (Elt Ideal) (Cert.GcnSpec.biasRelu (V c main_v73) (V c main_v74)) := by
  show (cfg5.win 2).cut (grid5.coords t) ((dat5 (F := Ideal) V c).after 2 t) = _
  rw [after5_2]
  unfold out5_2
  rw [View.canon_unit_zero zeros2]
  simp only [View.ld_unit_zero (S := S5000x64) zeros2, View.ld_unit_zero (S := S1x64) zeros2]
  obtain ⟨ht, e00, e01, e10, e11, e20, e21⟩ := idx5 t
  funext j
  obtain ⟨p, q, rfl⟩ : ∃ (p : Fin 5000) (q : Fin 64), j = ix2 p q := ⟨j 0, j 1, eq_ix2 (n0 := 5000) (n1 := 64) j⟩
  show k5_pay1 (iblk5 V c 0 t) (iblk5 V c 1 t) (ix2 p q) = Cert.GcnSpec.biasRelu (V c main_v73) (V c main_v74) (((cfg5.win 2).blk t).view.emb (ix2 p q))
  refine (pay5_apply _ _ p q).trans ?_
  -- a block's coordinate in the array is block index × block size + 1 × the coordinate inside the block
  have hE2 : ((cfg5.win 2).blk t).view.emb (ix2 p q) = ix2 (⟨t.val * 5000 + p.val, by have := p.isLt; omega⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * q.val = q.val; omega
  have hE0 : ((cfg5.win 0).blk t).view.emb (ix2 p q) = ix2 (⟨t.val * 5000 + p.val, by have := p.isLt; omega⟩ : Fin 50000) q := by
    funext a; apply Fin.ext
    match a with
    | ⟨0, _⟩ => show win5_0.index t (0 : Fin 2) * 5000 + 1 * p.val = t.val * 5000 + p.val; omega
    | ⟨1, _⟩ => show win5_0.index t (1 : Fin 2) * 64 + 1 * q.val = q.val; omega
  have hE1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 64 + 1 * q.val = q.val; omega
  rw [hE2, biasRelu_apply]
  have h0 : iblk5 V c 0 t (ix2 p q) = V c main_v73 (ix2 (⟨t.val * 5000 + p.val, by have := p.isLt; omega⟩ : Fin 50000) q) := by
    show V c main_v73 (((cfg5.win 0).blk t).view.emb (ix2 p q)) = _
    rw [hE0]
  have h1 : iblk5 V c 1 t (ix2 (0 : Fin 1) q) = V c main_v74 (ix2 (0 : Fin 1) q) := by
    show V c main_v74 (((cfg5.win 1).blk t).view.emb (ix2 (0 : Fin 1) q)) = _
    rw [hE1]
  rw [h0, h1]

/-- An entry of the array is in point `t`'s block iff each of its coordinates is in the block's range on that axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v75).slice (win5_2.rect t)).set ↔ _
  rw [View.set_slice_whole, Rect.mem_set_unit]
  exact Iff.rfl

/-- Row `v` of the array is written back by the grid point whose row block is `v / 5000`. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, q0, q1⟩ := onto5 ⟨(i 0).val / 5000, by omega⟩
  have q0' : win5_2.index t (0 : Fin 2) = (i 0).val / 5000 := q0
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The ten row blocks tile the array, so after the launch it holds the bias-and-clamp of the arrays the launch found. -/
theorem region5 : (dat5 (F := Ideal) V c).arrAt 2 cfg5.N = Cert.GcnSpec.biasRelu (V c main_v73) (V c main_v74) :=
  (dat5 (F := Ideal) V c).arrAt_eq_of_cover 2 (Cert.GcnSpec.biasRelu (V c main_v73) (V c main_v74)) (fun t _ => flushed5 V c t) cover5

end Cert.KernelIdeal.ActRegions

end
-- ==== Proof.HeadRegion.lean ====
/-
  The last launch: the two affine maps on the 256 pooled rows,

      out = (g A + a) B + b,      g : 256 × 64,  A : 64 × 16,  a : 1 × 16,  B : 16 × 1,  b : 1 × 1,

  the bias rows `a` and `b` added to every row. The launch has one grid point and every array is one block (block
  index (0, 0), block = array), so what the point loads are the arrays themselves and what it writes back is the whole
  output. At the ideal values a matrix product into a zero accumulator and the host's matrix product are the same sum
  over the contraction index, Σ_k lhs(r, k) · rhs(k, c), with no rounding and no order in it; the two programs' dimension
  records carry the same contraction axes, so the sums coincide term by term. A row broadcast [1, n] → [256, n] reads
  row 0 at the same column in both spellings.
-/
import proofs.«143761_j21586505630436_1_alg».proof.Proof.Gen.KernelIdeal.Frame
import proofs.«143761_j21586505630436_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadRegion

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b)) (c : Dev nD)

/-- The two zero offsets of a whole-block access, as the constant function. -/
theorem zeros2 : (![0, 0] : Fin 2 → Nat) = fun _ => 0 := funext fun a => by fin_cases a <;> rfl

/-! ## The body's expression is the two affine maps -/

/-- The bias row `a` over 256 rows: both spellings read `a(0, q)` at `(p, q)`. -/
theorem row16 (a : FVec Ideal S1x16 .f32) :
    broadcastTo S256x16 a broadcasts_S1x16_S256x16 = broadcastInDim Cert.ReferenceIdeal.S256x16 ![0, 1] Cert.ReferenceIdeal.Gen.bcast_S1x16_S256x16_0_1 a := by
  funext j
  obtain ⟨p, q, rfl⟩ : ∃ (p : Fin 256) (q : Fin 16), j = ix2 p q := ⟨j 0, j 1, eq_ix2 j⟩
  rw [broadcastTo_1b_ab_apply]
  exact (broadcastInDim_apply _ _ a (ix2 p q) (ix2 (0 : Fin 1) q) (fun ax => by match ax with | ⟨0, _⟩ => rfl | ⟨1, _⟩ => rfl)).symm

/-- The one-entry bias `b` over 256 rows: both spellings read `b(0, 0)` everywhere (the one column is column 0). -/
theorem row1 (b : FVec Ideal S1x1 .f32) :
    broadcastTo S256x1 b broadcasts_S1x1_S256x1 = broadcastInDim Cert.ReferenceIdeal.S256x1 ![0, 1] Cert.ReferenceIdeal.Gen.bcast_S1x1_S256x1_0_1 b := by
  funext j
  obtain ⟨p, q, rfl⟩ : ∃ (p : Fin 256) (q : Fin 1), j = ix2 p q := ⟨j 0, j 1, eq_ix2 j⟩
  rw [broadcastTo_1b_ab_apply]
  exact (broadcastInDim_apply _ _ b (ix2 p q) (ix2 (0 : Fin 1) q) (fun ax => by
    match ax with
    | ⟨0, _⟩ => rfl
    | ⟨1, _⟩ => have := q.isLt; show q.val = 0; omega)).symm

/-- `x A` (256 × 64 by 64 × 16): the product into the zero accumulator and the host's product are the same sum
    Σ_k x(r, k) · A(k, c) over the 64 contraction indices. -/
theorem mm1 (x : FVec Ideal S256x64 .f32) (A : FVec Ideal S64x16 .f32) :
    matmul dot_S256x64_S64x16_S256x16_1_0_0_1_n_n none x A (constant S256x16 .f32 0x00000000#32)
      = Host.dotGeneral Cert.ReferenceIdeal.dot_S256x64_S64x16_S256x16_1_0_0_1_n_n none x A := by
  funext j
  simp only [matmul, Host.dotGeneral]
  rw [Ideal.matmul_constant_zero_apply, Ideal.dotGeneral_apply]
  rfl

/-- `x B` (256 × 16 by 16 × 1): the same for the second product, a sum over the 16 contraction indices. -/
theorem mm2 (x : FVec Ideal S256x16 .f32) (B : FVec Ideal S16x1 .f32) :
    matmul dot_S256x16_S16x1_S256x1_1_0_0_1_n_n none x B (constant S256x1 .f32 0x00000000#32)
      = Host.dotGeneral Cert.ReferenceIdeal.dot_S256x16_S16x1_S256x1_1_0_0_1_n_n none x B := by
  funext j
  simp only [matmul, Host.dotGeneral]
  rw [Ideal.matmul_constant_zero_apply, Ideal.dotGeneral_apply]
  rfl

/-- The body's expression on whole arrays is `(g A + a) B + b`: the three reshapes keep their shapes, the two products
    and the two row broadcasts are as above. -/
theorem pay6_eq (g : FVec Ideal S256x64 .f32) (A : FVec Ideal S64x16 .f32) (a : FVec Ideal S1x16 .f32) (B : FVec Ideal S16x1 .f32) (b : FVec Ideal S1x1 .f32) :
    k6_pay1 g A a B b = Cert.GcnSpec.head g A a B b := by
  unfold k6_pay1 Cert.GcnSpec.head
  dsimp only
  rw [shapeCast_self, shapeCast_self, shapeCast_self, mm1, row16, mm2, row1]

/-! ## One grid point, every block the whole array -/

/-- Every window's block index at the one grid point is (0, 0). -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- The pooled rows `g` (256 × 64): the block the one grid point loads is the whole array. -/
theorem blk6_0 (t : Fin cfg6.N) : iblk6 (F := Ideal) V c 0 t = V c main_v86 := by
  obtain ⟨e00, e01, e10, e11, e20, e21, e30, e31, e40, e41, e50, e51⟩ := idx6 t
  funext y
  show V c main_v86 (((cfg6.win 0).blk t).view.emb y) = V c main_v86 y
  congr 1
  funext a; apply Fin.ext
  match a with
  | ⟨0, _⟩ => show win6_0.index t (0 : Fin 2) * 256 + 1 * (y 0).val = (y 0).val; omega
  | ⟨1, _⟩ => show win6_0.index t (1 : Fin 2) * 64 + 1 * (y 1).val = (y 1).val; omega

/-- The first weight matrix (64 × 16): the block the one grid point loads is the whole array. -/
theorem blk6_1 (t : Fin cfg6.N) : iblk6 (F := Ideal) V c 1 t = V c main_arg9 := by
  obtain ⟨e00, e01, e10, e11, e20, e21, e30, e31, e40, e41, e50, e51⟩ := idx6 t
  funext y
  show V c main_arg9 (((cfg6.win 1).blk t).view.emb y) = V c main_arg9 y
  congr 1
  funext a; apply Fin.ext
  match a with
  | ⟨0, _⟩ => show win6_1.index t (0 : Fin 2) * 64 + 1 * (y 0).val = (y 0).val; omega
  | ⟨1, _⟩ => show win6_1.index t (1 : Fin 2) * 16 + 1 * (y 1).val = (y 1).val; omega

/-- The first bias row (1 × 16): the block the one grid point loads is the whole array. -/
theorem blk6_2 (t : Fin cfg6.N) : iblk6 (F := Ideal) V c 2 t = V c main_v87 := by
  obtain ⟨e00, e01, e10, e11, e20, e21, e30, e31, e40, e41, e50, e51⟩ := idx6 t
  funext y
  show V c main_v87 (((cfg6.win 2).blk t).view.emb y) = V c main_v87 y
  congr 1
  funext a; apply Fin.ext
  match a with
  | ⟨0, _⟩ => show win6_2.index t (0 : Fin 2) * 1 + 1 * (y 0).val = (y 0).val; omega
  | ⟨1, _⟩ => show win6_2.index t (1 : Fin 2) * 16 + 1 * (y 1).val = (y 1).val; omega

/-- The second weight matrix (16 × 1): the block the one grid point loads is the whole array. -/
theorem blk6_3 (t : Fin cfg6.N) : iblk6 (F := Ideal) V c 3 t = V c main_arg11 := by
  obtain ⟨e00, e01, e10, e11, e20, e21, e30, e31, e40, e41, e50, e51⟩ := idx6 t
  funext y
  show V c main_arg11 (((cfg6.win 3).blk t).view.emb y) = V c main_arg11 y
  congr 1
  funext a; apply Fin.ext
  match a with
  | ⟨0, _⟩ => show win6_3.index t (0 : Fin 2) * 16 + 1 * (y 0).val = (y 0).val; omega
  | ⟨1, _⟩ => show win6_3.index t (1 : Fin 2) * 1 + 1 * (y 1).val = (y 1).val; omega

/-- The second bias (1 × 1): the block the one grid point loads is the whole array. -/
theorem blk6_4 (t : Fin cfg6.N) : iblk6 (F := Ideal) V c 4 t = V c main_v88 := by
  obtain ⟨e00, e01, e10, e11, e20, e21, e30, e31, e40, e41, e50, e51⟩ := idx6 t
  funext y
  show V c main_v88 (((cfg6.win 4).blk t).view.emb y) = V c main_v88 y
  congr 1
  funext a; apply Fin.ext
  match a with
  | ⟨0, _⟩ => show win6_4.index t (0 : Fin 2) * 1 + 1 * (y 0).val = (y 0).val; omega
  | ⟨1, _⟩ => show win6_4.index t (1 : Fin 2) * 1 + 1 * (y 1).val = (y 1).val; omega

/-- What the grid point writes back is `(g A + a) B + b` of the arrays the launch found, read through the output's
    one block, which sits at offset (0, 0). -/
theorem flushed6 (t : Fin cfg6.N) :
    (dat6 (F := Ideal) V c).flushed 5 t = ((cfg6.win 5).blk t).view.read (Elt Ideal) (Cert.GcnSpec.head (V c main_v86) (V c main_arg9) (V c main_v87) (V c main_arg11) (V c main_v88)) := by
  show (cfg6.win 5).cut (grid6.coords t) ((dat6 (F := Ideal) V c).after 5 t) = _
  rw [after6_5]
  unfold out6_5
  rw [View.canon_unit_zero zeros2]
  simp only [View.ld_unit_zero (S := S256x64) zeros2, View.ld_unit_zero (S := S64x16) zeros2, View.ld_unit_zero (S := S1x16) zeros2, View.ld_unit_zero (S := S16x1) zeros2, View.ld_unit_zero (S := S1x1) zeros2]
  rw [blk6_0, blk6_1, blk6_2, blk6_3, blk6_4]
  obtain ⟨e00, e01, e10, e11, e20, e21, e30, e31, e40, e41, e50, e51⟩ := idx6 t
  funext j
  show k6_pay1 (V c main_v86) (V c main_arg9) (V c main_v87) (V c main_arg11) (V c main_v88) j
    = Cert.GcnSpec.head (V c main_v86) (V c main_arg9) (V c main_v87) (V c main_arg11) (V c main_v88) (((cfg6.win 5).blk t).view.emb j)
  refine (congrFun (pay6_eq _ _ _ _ _) j).trans ?_
  congr 1
  funext a; apply Fin.ext
  match a with
  | ⟨0, _⟩ => show (j 0).val = win6_5.index t (0 : Fin 2) * 256 + 1 * (j 0).val; omega
  | ⟨1, _⟩ => show (j 1).val = win6_5.index t (1 : Fin 2) * 1 + 1 * (j 1).val; omega

/-- The grid has a point, and its output block index is (0, 0). -/
theorem onto6 : ∃ t : Fin cfg6.N, win6_5.index t (0 : Fin 2) = 0 ∧ win6_5.index t (1 : Fin 2) = 0 :=
  (by decide +kernel : ∃ t : Fin grid6.N, win6_5.index t (0 : Fin 2) = 0 ∧ win6_5.index t (1 : Fin 2) = 0)

/-- An entry of the output is in the point's block iff each of its coordinates is in the block's range on that axis. -/
theorem mem_blk6 (t : Fin cfg6.N) (i : S256x1.Idx) :
    i ∈ ((cfg6.win 5).blk t).view.set ↔ ∀ a : Fin 2, win6_5.index t a * S256x1.size a ≤ (i a).val ∧ (i a).val < win6_5.index t a * S256x1.size a + S256x1.size a := by
  show i ∈ ((View.whole main_v89).slice (win6_5.rect t)).set ↔ _
  rw [View.set_slice_whole, Rect.mem_set_unit]
  exact Iff.rfl

/-- The one block covers all 256 × 1 entries. -/
theorem cover6 (i : S256x1.Idx) : ∃ t : Fin cfg6.N, (cfg6.win 5).flush t = true ∧ i ∈ ((cfg6.win 5).blk t).view.set := by
  have hi0 : (i 0).val < 256 := (i 0).isLt
  have hi1 : (i 1).val < 1 := (i 1).isLt
  obtain ⟨t, q0, q1⟩ := onto6
  refine ⟨t, flush6_5 t, ?_⟩
  rw [mem_blk6]
  intro a
  match a with
  | ⟨0, _⟩ => show win6_5.index t (0 : Fin 2) * 256 ≤ (i 0).val ∧ (i 0).val < win6_5.index t (0 : Fin 2) * 256 + 256; omega
  | ⟨1, _⟩ => show win6_5.index t (1 : Fin 2) * 1 ≤ (i 1).val ∧ (i 1).val < win6_5.index t (1 : Fin 2) * 1 + 1; omega

/-- So after the launch the output array holds `(g A + a) B + b` of the arrays the launch found. -/
theorem region6 : (dat6 (F := Ideal) V c).arrAt 5 cfg6.N = Cert.GcnSpec.head (V c main_v86) (V c main_arg9) (V c main_v87) (V c main_arg11) (V c main_v88) :=
  (dat6 (F := Ideal) V c).arrAt_eq_of_cover 5 (Cert.GcnSpec.head (V c main_v86) (V c main_arg9) (V c main_v87) (V c main_arg11) (V c main_v88)) (fun t _ => flushed6 V c t) cover6

end Cert.KernelIdeal.HeadRegion

end
-- ==== Proof.Boundary.lean ====
/-
  The kernel program's result, read back to the network of its launched arguments.

  The program is sixteen segments (stretches of host operations and seven launches); its run ends with every buffer at
  the composition of the segments, and this module evaluates that composition at the result buffer, backwards in
  dependency and forwards in time:

  * the first stretches build, from the edge list, the message sources and targets, the count of messages per node,
    deg^(-1/2) where the count is positive, and the weight of every message;
  * each layer is a launch leaving h W (its row blocks are the whole product's rows), a stretch gathering the
    sources' rows, weighting them and scatter-adding them at the targets (the very operations of the reference,
    applied to the same operands, so never opened), the bias re-laid as a one-row matrix, and a launch adding the
    bias row and clamping at zero;
  * the last stretch takes each graph's mean, and the last launch applies the two affine maps.

  What a later segment reads from an earlier one is carried across the segments in between: a launch changes only
  its own arrays, a stretch only the buffers its operations write, and the argument arrays are written by nothing.
-/
import proofs.«143761_j21586505630436_1_alg».proof.Proof.Gen.KernelIdeal.Frame
import proofs.«143761_j21586505630436_1_alg».proof.Proof.Spec
import proofs.«143761_j21586505630436_1_alg».proof.Proof.RowView
import proofs.«143761_j21586505630436_1_alg».proof.Proof.ProjRegions
import proofs.«143761_j21586505630436_1_alg».proof.Proof.ActRegions
import proofs.«143761_j21586505630436_1_alg».proof.Proof.HeadRegion

set_option maxRecDepth 16384

noncomputable section

namespace Cert.KernelIdeal.Boundary

open Idealize.ShloMosaic Idealize.ShloMosaic.TcCoe Idealize.SL.Sem Cert.KernelIdeal Cert.KernelIdeal.Gen Cert

variable (m : (ℓ : Loc nD τ sig) → Buf (Elt Ideal) ℓ) (ρ : Dev nD → PrngReg) (c : Dev nD)

/-! ## The values the program holds along the way, as functions of the launched arguments on core `c` -/

/-- The message sources and targets, from the edge list. -/
def srcs : IVec Cert.ReferenceIdeal.S1650000 32 := GcnSpec.srcIdx (m ((c : Thread nD τ).loc main_arg1))
def dsts : IVec Cert.ReferenceIdeal.S1650000 32 := GcnSpec.dstIdx (m ((c : Thread nD τ).loc main_arg1))

/-- The node features after the first, second and third layer. -/
def hid1 : FVec Ideal Cert.ReferenceIdeal.S50000x64 .f32 :=
  GcnSpec.biasRelu (GcnSpec.aggregate (srcs m c) (dsts m c) (GcnSpec.proj128 (m ((c : Thread nD τ).loc main_arg0)) (m ((c : Thread nD τ).loc main_arg3)))) (GcnSpec.row64 (m ((c : Thread nD τ).loc main_arg4)))
def hid2 : FVec Ideal Cert.ReferenceIdeal.S50000x64 .f32 :=
  GcnSpec.biasRelu (GcnSpec.aggregate (srcs m c) (dsts m c) (GcnSpec.proj64 (hid1 m c) (m ((c : Thread nD τ).loc main_arg5)))) (GcnSpec.row64 (m ((c : Thread nD τ).loc main_arg6)))
def hid3 : FVec Ideal Cert.ReferenceIdeal.S50000x64 .f32 :=
  GcnSpec.biasRelu (GcnSpec.aggregate (srcs m c) (dsts m c) (GcnSpec.proj64 (hid2 m c) (m ((c : Thread nD τ).loc main_arg7)))) (GcnSpec.row64 (m ((c : Thread nD τ).loc main_arg8)))

/-! ## The argument arrays stay as launched

No host operation writes an argument array, and a launch leaves every buffer that is not one of its own arrays as it
found it. So an argument array read at a segment boundary is the launched one, as long as no launch in between has it
among its arrays. One statement per boundary where something is read, over the arguments still to be read there. -/

/-- The argument arrays the program reads (all but the edge list, which only the first stretch reads). -/
abbrev args3 : List (Ref sig .tc) :=
  [main_arg0, main_arg2, main_arg3, main_arg4, main_arg5, main_arg6, main_arg7, main_arg8, main_arg9, main_arg10, main_arg11, main_arg12]
/-- Those read after the first launch (whose arrays are `x`, `W1` and its product). -/
abbrev args4 : List (Ref sig .tc) :=
  [main_arg2, main_arg4, main_arg5, main_arg6, main_arg7, main_arg8, main_arg9, main_arg10, main_arg11, main_arg12]
/-- Those read after the third launch (which has `W2` among its arrays). -/
abbrev args7 : List (Ref sig .tc) :=
  [main_arg2, main_arg6, main_arg7, main_arg8, main_arg9, main_arg10, main_arg11, main_arg12]
/-- Those read after the fifth launch (which has `W3` among its arrays). -/
abbrev args10 : List (Ref sig .tc) :=
  [main_arg2, main_arg8, main_arg9, main_arg10, main_arg11, main_arg12]
/-- Those read after the sixth launch. -/
abbrev args12 : List (Ref sig .tc) :=
  [main_arg2, main_arg9, main_arg10, main_arg11, main_arg12]

set_option maxHeartbeats 400000000 in
theorem kept3 (b : Ref sig .tc) (hb : b ∈ args3) : W3 m ρ c (Proc.devRef .tc b) = m ((c : Thread nD τ).loc b) := by
  simp only [args3, List.mem_cons, List.not_mem_nil, or_false] at hb
  rcases hb with rfl | rfl | rfl | rfl | rfl | rfl | rfl | rfl | rfl | rfl | rfl | rfl
  all_goals (dsimp only [W3, W2, W1, hostOps0_2, hostOps0_1, hostOps0]; after_results_simp <;> rfl)

theorem kept4 (b : Ref sig .tc) (hb : b ∈ args4) : W4 m ρ c (Proc.devRef .tc b) = m ((c : Thread nD τ).loc b) := by
  simp only [args4, List.mem_cons, List.not_mem_nil, or_false] at hb
  rcases hb with rfl | rfl | rfl | rfl | rfl | rfl | rfl | rfl | rfl | rfl
  all_goals exact (W4_of_ne m ρ c _ (by decide)).trans (kept3 m ρ c _ (by decide))

set_option maxHeartbeats 400000000 in
/-- Past the second launch (its arrays are the aggregate, the bias row and its output). -/
theorem kept6 (b : Ref sig .tc) (hb : b ∈ args4) : W6 m ρ c (Proc.devRef .tc b) = m ((c : Thread nD τ).loc b) := by
  simp only [args4, List.mem_cons, List.not_mem_nil, or_false] at hb
  rcases hb with rfl | rfl | rfl | rfl | rfl | rfl | rfl | rfl | rfl | rfl
  all_goals (
    refine (W6_of_ne m ρ c _ (by decide)).trans ?_
    dsimp only [W5, hostOps1]
    after_results_simp
    exact kept4 m ρ c _ (by decide))

theorem kept7 (b : Ref sig .tc) (hb : b ∈ args7) : W7 m ρ c (Proc.devRef .tc b) = m ((c : Thread nD τ).loc b) := by
  simp only [args7, List.mem_cons, List.not_mem_nil, or_false] at hb
  rcases hb with rfl | rfl | rfl | rfl | rfl | rfl | rfl | rfl
  all_goals exact (W7_of_ne m ρ c _ (by decide)).trans (kept6 m ρ c _ (by decide))

set_option maxHeartbeats 400000000 in
theorem kept9 (b : Ref sig .tc) (hb : b ∈ args7) : W9 m ρ c (Proc.devRef .tc b) = m ((c : Thread nD τ).loc b) := by
  simp only [args7, List.mem_cons, List.not_mem_nil, or_false] at hb
  rcases hb with rfl | rfl | rfl | rfl | rfl | rfl | rfl | rfl
  all_goals (
    refine (W9_of_ne m ρ c _ (by decide)).trans ?_
    dsimp only [W8, hostOps3]
    after_results_simp
    exact kept7 m ρ c _ (by decide))

theorem kept10 (b : Ref sig .tc) (hb : b ∈ args10) : W10 m ρ c (Proc.devRef .tc b) = m ((c : Thread nD τ).loc b) := by
  simp only [args10, List.mem_cons, List.not_mem_nil, or_false] at hb
  rcases hb with rfl | rfl | rfl | rfl | rfl | rfl
  all_goals exact (W10_of_ne m ρ c _ (by decide)).trans (kept9 m ρ c _ (by decide))

set_option maxHeartbeats 400000000 in
theorem kept12 (b : Ref sig .tc) (hb : b ∈ args12) : W12 m ρ c (Proc.devRef .tc b) = m ((c : Thread nD τ).loc b) := by
  simp only [args12, List.mem_cons, List.not_mem_nil, or_false] at hb
  rcases hb with rfl | rfl | rfl | rfl | rfl
  all_goals (
    refine (W12_of_ne m ρ c _ (by decide)).trans ?_
    dsimp only [W11, hostOps5]
    after_results_simp
    exact kept10 m ρ c _ (by decide))

set_option maxHeartbeats 400000000 in
/-- Through the last stretch, for the two weight matrices the last launch reads. -/
theorem kept15 (b : Ref sig .tc) (hb : b ∈ [main_arg9, main_arg11]) : W15 m ρ c (Proc.devRef .tc b) = m ((c : Thread nD τ).loc b) := by
  simp only [List.mem_cons, List.not_mem_nil, or_false] at hb
  rcases hb with rfl | rfl
  all_goals (
    dsimp only [W15, W14, W13, hostOps6_2, hostOps6_1, hostOps6]
    after_results_simp
    exact kept12 m ρ c _ (by decide))

/-! ## Before the first launch: the graph structure, computed once

The first stretch builds the sources and targets and counts the messages per node; a called function selects
deg^(-1/2) where the count is positive; the third stretch gathers it at both ends of every message and multiplies. -/

set_option maxHeartbeats 40000000 in
theorem src1 : W1 m ρ c (Proc.devRef .tc main_v5) = srcs m c := by
  dsimp only [W1, hostOps0]
  after_results_simp <;> rfl

set_option maxHeartbeats 40000000 in
theorem dst1 : W1 m ρ c (Proc.devRef .tc main_v6) = dsts m c := by
  dsimp only [W1, hostOps0]
  after_results_simp <;> rfl

/-- The called function selects between its second argument and its scalar third argument spread over the nodes; read
    at its buffers' own types (each such reading is the identity) it is that `select` of the operands. -/
theorem where_skeleton (a : IVec S50000 1) (b : FVec Ideal S50000 .f32) (z : FVec Ideal S_ .f32) :
    (StableHlo.TRef.of (T := ⟨S50000, .f32⟩) main_v14).toBuf (Val := Elt Ideal)
      (select ((StableHlo.TRef.of (T := ⟨S50000, .i1⟩) main_v12).ofBuf (Val := Elt Ideal) a)
        ((StableHlo.TRef.of (T := ⟨S50000, .f32⟩) main_v13).ofBuf (Val := Elt Ideal) b)
        ((StableHlo.TRef.of (T := ⟨S50000, .f32⟩) main_call0_v1).ofBuf (Val := Elt Ideal)
          ((StableHlo.TRef.of (T := ⟨S50000, .f32⟩) main_call0_v1).toBuf (Val := Elt Ideal)
            (broadcastInDim S50000 ![] bcast_S_S50000
              ((StableHlo.TRef.of (T := ⟨S_, .f32⟩) main_call0_v0).ofBuf (Val := Elt Ideal)
                ((StableHlo.TRef.of (T := ⟨S_, .f32⟩) main_call0_v0).toBuf (Val := Elt Ideal)
                  (id ((StableHlo.TRef.of (T := ⟨S_, .f32⟩) main_cst_2).ofBuf (Val := Elt Ideal) z))))))))
    = select a b (broadcastInDim S50000 ![] bcast_S_S50000 (id z)) := rfl

set_option maxHeartbeats 40000000 in
/-- deg^(-1/2) where the count of messages arriving at a node is positive, 0 elsewhere. -/
theorem dinv2 : W2 m ρ c (Proc.devRef .tc main_v14) = GcnSpec.dinv (dsts m c) := by
  dsimp only [W2, W1, hostOps0_1, hostOps0]
  after_results_simp
  -- the list of targets occurs twice (in the count and in its reciprocal root): name it once
  generalize hC : concatenate _ _ _ _ = C
  have hd : C = dsts m c := hC.symm.trans rfl
  rw [hd]
  refine (where_skeleton _ _ _).trans ?_
  unfold GcnSpec.dinv GcnSpec.deg
  rfl

set_option maxHeartbeats 40000000 in
theorem src2 : W2 m ρ c (Proc.devRef .tc main_v5) = srcs m c := by
  dsimp only [W2, hostOps0_1]
  after_results_simp
  exact src1 m ρ c

set_option maxHeartbeats 40000000 in
theorem dst2 : W2 m ρ c (Proc.devRef .tc main_v6) = dsts m c := by
  dsimp only [W2, hostOps0_1]
  after_results_simp
  exact dst1 m ρ c

set_option maxHeartbeats 40000000 in
theorem src3 : W3 m ρ c (Proc.devRef .tc main_v5) = srcs m c := by
  dsimp only [W3, hostOps0_2]
  after_results_simp
  exact src2 m ρ c

set_option maxHeartbeats 40000000 in
theorem dst3 : W3 m ρ c (Proc.devRef .tc main_v6) = dsts m c := by
  dsimp only [W3, hostOps0_2]
  after_results_simp
  exact dst2 m ρ c

set_option maxHeartbeats 40000000 in
/-- The weight of every message, as a column. -/
theorem norm3 : W3 m ρ c (Proc.devRef .tc main_v30) = GcnSpec.normCol (srcs m c) (dsts m c) := by
  have h14 := dinv2 m ρ c
  have h5 := src2 m ρ c
  have h6 := dst2 m ρ c
  show StableHlo.after hostOps0_2 (W2 m ρ c) (Proc.devRef .tc main_v30) = _
  generalize W2 m ρ c = U at h14 h5 h6 ⊢
  dsimp only [hostOps0_2]
  after_results_simp
  rw [h14, h5, h6]
  rfl

/-! ## Layer 1 -/

/-- The first launch leaves `x W1` (its row blocks are the rows of the whole product). -/
theorem proj_1 : W4 m ρ c (Proc.devRef .tc main_v31) = GcnSpec.proj128 (m ((c : Thread nD τ).loc main_arg0)) (m ((c : Thread nD τ).loc main_arg3)) := by
  refine ((W4_arr m ρ c 2).trans (ProjRegions.region0 (V3 m ρ) c)).trans ?_
  show GcnSpec.proj128 (W3 m ρ c (Proc.devRef .tc main_arg0)) (W3 m ρ c (Proc.devRef .tc main_arg3)) = _
  rw [kept3 m ρ c main_arg0 (by decide), kept3 m ρ c main_arg3 (by decide)]

theorem src4 : W4 m ρ c (Proc.devRef .tc main_v5) = srcs m c := (W4_of_ne m ρ c main_v5 (by decide)).trans (src3 m ρ c)
theorem dst4 : W4 m ρ c (Proc.devRef .tc main_v6) = dsts m c := (W4_of_ne m ρ c main_v6 (by decide)).trans (dst3 m ρ c)
theorem norm4 : W4 m ρ c (Proc.devRef .tc main_v30) = GcnSpec.normCol (srcs m c) (dsts m c) :=
  (W4_of_ne m ρ c main_v30 (by decide)).trans (norm3 m ρ c)

set_option maxHeartbeats 20000000 in
/-- The host's gather, weighting and scatter-add of `x W1`. -/
theorem agg_1 : W5 m ρ c (Proc.devRef .tc main_v43) = GcnSpec.aggregate (srcs m c) (dsts m c) (GcnSpec.proj128 (m ((c : Thread nD τ).loc main_arg0)) (m ((c : Thread nD τ).loc main_arg3))) := by
  dsimp only [W5, hostOps1]
  after_results_simp
  rw [src4 m ρ c, dst4 m ρ c, norm4 m ρ c, proj_1 m ρ c]
  rfl

set_option maxHeartbeats 20000000 in
/-- The bias vector re-laid as a one-row matrix is the bias broadcast along a new leading axis. -/
theorem bias_1 : W5 m ρ c (Proc.devRef .tc main_v44) = GcnSpec.row64 (m ((c : Thread nD τ).loc main_arg4)) := by
  dsimp only [W5, hostOps1]
  after_results_simp
  rw [kept4 m ρ c main_arg4 (by decide)]
  exact Cert.RowView.shapeCast_eq_broadcastInDim (n := 64) _ _ _

/-- The second launch adds the bias row and clamps at zero, row block by row block. -/
theorem act_1 : W6 m ρ c (Proc.devRef .tc main_v45) = hid1 m c := by
  refine ((W6_arr m ρ c 2).trans (ActRegions.region1 (V5 m ρ) c)).trans ?_
  show GcnSpec.biasRelu (W5 m ρ c (Proc.devRef .tc main_v43)) (W5 m ρ c (Proc.devRef .tc main_v44)) = _
  rw [agg_1 m ρ c, bias_1 m ρ c]
  rfl

/-! ## Layer 2 -/

/-- The third launch leaves `h₁ W2`. -/
theorem proj_2 : W7 m ρ c (Proc.devRef .tc main_v46) = GcnSpec.proj64 (hid1 m c) (m ((c : Thread nD τ).loc main_arg5)) := by
  refine ((W7_arr m ρ c 2).trans (ProjRegions.region2 (V6 m ρ) c)).trans ?_
  show GcnSpec.proj64 (W6 m ρ c (Proc.devRef .tc main_v45)) (W6 m ρ c (Proc.devRef .tc main_arg5)) = _
  rw [act_1 m ρ c, kept6 m ρ c main_arg5 (by decide)]

/-! What the first stretch computed passes the two launches and the stretch between them untouched. -/
set_option maxHeartbeats 20000000 in
theorem src7 : W7 m ρ c (Proc.devRef .tc main_v5) = srcs m c := by
  rw [W7_of_ne m ρ c main_v5 (by decide), W6_of_ne m ρ c main_v5 (by decide)]
  dsimp only [W5, hostOps1]
  after_results_simp
  exact src4 m ρ c
set_option maxHeartbeats 20000000 in
theorem dst7 : W7 m ρ c (Proc.devRef .tc main_v6) = dsts m c := by
  rw [W7_of_ne m ρ c main_v6 (by decide), W6_of_ne m ρ c main_v6 (by decide)]
  dsimp only [W5, hostOps1]
  after_results_simp
  exact dst4 m ρ c
set_option maxHeartbeats 20000000 in
theorem norm7 : W7 m ρ c (Proc.devRef .tc main_v30) = GcnSpec.normCol (srcs m c) (dsts m c) := by
  rw [W7_of_ne m ρ c main_v30 (by decide), W6_of_ne m ρ c main_v30 (by decide)]
  dsimp only [W5, hostOps1]
  after_results_simp
  exact norm4 m ρ c

set_option maxHeartbeats 20000000 in
theorem agg_2 : W8 m ρ c (Proc.devRef .tc main_v58) = GcnSpec.aggregate (srcs m c) (dsts m c) (GcnSpec.proj64 (hid1 m c) (m ((c : Thread nD τ).loc main_arg5))) := by
  dsimp only [W8, hostOps3]
  after_results_simp
  rw [src7 m ρ c, dst7 m ρ c, norm7 m ρ c, proj_2 m ρ c]
  rfl

set_option maxHeartbeats 20000000 in
theorem bias_2 : W8 m ρ c (Proc.devRef .tc main_v59) = GcnSpec.row64 (m ((c : Thread nD τ).loc main_arg6)) := by
  dsimp only [W8, hostOps3]
  after_results_simp
  rw [kept7 m ρ c main_arg6 (by decide)]
  exact Cert.RowView.shapeCast_eq_broadcastInDim (n := 64) _ _ _

theorem act_2 : W9 m ρ c (Proc.devRef .tc main_v60) = hid2 m c := by
  refine ((W9_arr m ρ c 2).trans (ActRegions.region3 (V8 m ρ) c)).trans ?_
  show GcnSpec.biasRelu (W8 m ρ c (Proc.devRef .tc main_v58)) (W8 m ρ c (Proc.devRef .tc main_v59)) = _
  rw [agg_2 m ρ c, bias_2 m ρ c]
  rfl

/-! ## Layer 3 -/

theorem proj_3 : W10 m ρ c (Proc.devRef .tc main_v61) = GcnSpec.proj64 (hid2 m c) (m ((c : Thread nD τ).loc main_arg7)) := by
  refine ((W10_arr m ρ c 2).trans (ProjRegions.region4 (V9 m ρ) c)).trans ?_
  show GcnSpec.proj64 (W9 m ρ c (Proc.devRef .tc main_v60)) (W9 m ρ c (Proc.devRef .tc main_arg7)) = _
  rw [act_2 m ρ c, kept9 m ρ c main_arg7 (by decide)]

set_option maxHeartbeats 20000000 in
theorem src10 : W10 m ρ c (Proc.devRef .tc main_v5) = srcs m c := by
  rw [W10_of_ne m ρ c main_v5 (by decide), W9_of_ne m ρ c main_v5 (by decide)]
  dsimp only [W8, hostOps3]
  after_results_simp
  exact src7 m ρ c
set_option maxHeartbeats 20000000 in
theorem dst10 : W10 m ρ c (Proc.devRef .tc main_v6) = dsts m c := by
  rw [W10_of_ne m ρ c main_v6 (by decide), W9_of_ne m ρ c main_v6 (by decide)]
  dsimp only [W8, hostOps3]
  after_results_simp
  exact dst7 m ρ c
set_option maxHeartbeats 20000000 in
theorem norm10 : W10 m ρ c (Proc.devRef .tc main_v30) = GcnSpec.normCol (srcs m c) (dsts m c) := by
  rw [W10_of_ne m ρ c main_v30 (by decide), W9_of_ne m ρ c main_v30 (by decide)]
  dsimp only [W8, hostOps3]
  after_results_simp
  exact norm7 m ρ c

set_option maxHeartbeats 20000000 in
theorem agg_3 : W11 m ρ c (Proc.devRef .tc main_v73) = GcnSpec.aggregate (srcs m c) (dsts m c) (GcnSpec.proj64 (hid2 m c) (m ((c : Thread nD τ).loc main_arg7))) := by
  dsimp only [W11, hostOps5]
  after_results_simp
  rw [src10 m ρ c, dst10 m ρ c, norm10 m ρ c, proj_3 m ρ c]
  rfl

set_option maxHeartbeats 20000000 in
theorem bias_3 : W11 m ρ c (Proc.devRef .tc main_v74) = GcnSpec.row64 (m ((c : Thread nD τ).loc main_arg8)) := by
  dsimp only [W11, hostOps5]
  after_results_simp
  rw [kept10 m ρ c main_arg8 (by decide)]
  exact Cert.RowView.shapeCast_eq_broadcastInDim (n := 64) _ _ _

theorem act_3 : W12 m ρ c (Proc.devRef .tc main_v75) = hid3 m c := by
  refine ((W12_arr m ρ c 2).trans (ActRegions.region5 (V11 m ρ) c)).trans ?_
  show GcnSpec.biasRelu (W11 m ρ c (Proc.devRef .tc main_v73)) (W11 m ρ c (Proc.devRef .tc main_v74)) = _
  rw [agg_3 m ρ c, bias_3 m ρ c]
  rfl

/-! ## The mean over each graph and the two affine maps -/

set_option maxHeartbeats 20000000 in
theorem pool_15 : W15 m ρ c (Proc.devRef .tc main_v86) = GcnSpec.pool (m ((c : Thread nD τ).loc main_arg2)) (hid3 m c) := by
  dsimp only [W15, W14, W13, hostOps6_2, hostOps6_1, hostOps6]
  after_results_simp
  rw [act_3 m ρ c, kept12 m ρ c main_arg2 (by decide)]
  rfl

set_option maxHeartbeats 20000000 in
theorem row_15_16 : W15 m ρ c (Proc.devRef .tc main_v87) = GcnSpec.row16 (m ((c : Thread nD τ).loc main_arg10)) := by
  dsimp only [W15, W14, W13, hostOps6_2, hostOps6_1, hostOps6]
  after_results_simp
  rw [kept12 m ρ c main_arg10 (by decide)]
  exact Cert.RowView.shapeCast_eq_broadcastInDim (n := 16) _ _ _

set_option maxHeartbeats 20000000 in
theorem row_15_1 : W15 m ρ c (Proc.devRef .tc main_v88) = GcnSpec.row1 (m ((c : Thread nD τ).loc main_arg12)) := by
  dsimp only [W15, W14, W13, hostOps6_2, hostOps6_1, hostOps6]
  after_results_simp
  rw [kept12 m ρ c main_arg12 (by decide)]
  exact Cert.RowView.shapeCast_eq_broadcastInDim (n := 1) _ _ _

/-- THE RESULT: what the program's result buffer holds at the end is the network of the launched arguments. -/
theorem result_16 : W16 m ρ c (Proc.devRef .tc main_v89)
    = GcnSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W16_arr m ρ c 5).trans (HeadRegion.region6 (V15 m ρ) c)).trans ?_
  show GcnSpec.head (W15 m ρ c (Proc.devRef .tc main_v86)) (W15 m ρ c (Proc.devRef .tc main_arg9)) (W15 m ρ c (Proc.devRef .tc main_v87)) (W15 m ρ c (Proc.devRef .tc main_arg11)) (W15 m ρ c (Proc.devRef .tc main_v88)) = _
  rw [pool_15 m ρ c, kept15 m ρ c main_arg9 (by decide), row_15_16 m ρ c, kept15 m ρ c main_arg11 (by decide), row_15_1 m ρ c]
  rfl

end Cert.KernelIdeal.Boundary

end
-- ==== Proof.lean ====
/-
  A three-layer graph convolution network with a mean pool and a two-layer head: the kernel program against its
  plain reference, at the ideal values (floats as extended reals, every operation exact).

  Both programs compute, for node features x, an edge list, a graph id per node and the weights,

      h₁ = max(A (x W₁) + b₁, 0),  h₂ = max(A (h₁ W₂) + b₂, 0),  h₃ = max(A (h₂ W₃) + b₃, 0),
      g  = the mean of h₃ over each graph's nodes (sum over the nodes / max(1, their number)),
      out = (g Wl₁ + bl₁) Wl₂ + bl₂,

  where A sums, at each node, the rows of its incoming messages (the edges and one self loop per node) weighted by
  deg^(-1/2) of the message's two ends. The irregular parts (the message weights, A, the pool) are the same host
  operations on the same operands in both programs; the kernel program computes the weights once and the reference
  once per layer, which is the same value three times. The dense parts are where the programs differ: the kernel
  program carries out each product h W in row blocks of 5000 nodes, adds the bias (re-laid as a one-row matrix) and
  clamps in a second launch, and does the head in one launch, while the reference applies whole-array operations.
  At the ideal values a block product into a zero accumulator is the same sum over the contraction index as the
  whole product's entry, and the bias and clamp are pointwise, so each launch leaves exactly the reference's
  whole-array value; no law of arithmetic beyond that is used, and the finiteness of the inputs is never needed.

  The proof: the kernel program's run with its result kept (the sixteen segments' composition read at the result
  buffer), that composition read back launch by launch and stretch by stretch to the network of the launched
  arguments, the reference's run with its result at the same network, and the arguments' agreement.
-/
import proofs.«143761_j21586505630436_1_alg».proof.Defs
import proofs.«143761_j21586505630436_1_alg».proof.Proof.Gen.Kernel
import proofs.«143761_j21586505630436_1_alg».proof.Proof.Gen.Kernel.Skeleton
import proofs.«143761_j21586505630436_1_alg».proof.Proof.Gen.Kernel.Launch
import proofs.«143761_j21586505630436_1_alg».proof.Proof.Gen.Kernel.Points
import proofs.«143761_j21586505630436_1_alg».proof.Proof.Gen.Kernel.Frame
import proofs.«143761_j21586505630436_1_alg».proof.Proof.Gen.KernelIdeal
import proofs.«143761_j21586505630436_1_alg».proof.Proof.Gen.KernelIdeal.Skeleton
import proofs.«143761_j21586505630436_1_alg».proof.Proof.Gen.KernelIdeal.Launch
import proofs.«143761_j21586505630436_1_alg».proof.Proof.Gen.KernelIdeal.Points
import proofs.«143761_j21586505630436_1_alg».proof.Proof.Gen.KernelIdeal.Frame
import proofs.«143761_j21586505630436_1_alg».proof.Proof.Gen.ReferenceIdeal
import proofs.«143761_j21586505630436_1_alg».proof.Proof.Gen.Pre_finite_inputs
import proofs.«143761_j21586505630436_1_alg».proof.Proof.RefRun
import proofs.«143761_j21586505630436_1_alg».proof.Proof.RefValue
import proofs.«143761_j21586505630436_1_alg».proof.Proof.RunValue
import proofs.«143761_j21586505630436_1_alg».proof.Proof.Boundary
import Idealize.ShloMosaic.Adequacy
import Idealize.ShloMosaic.Init

noncomputable section

namespace Cert.Proof

open Idealize.ShloMosaic Idealize.SL.Sem

/-- Both idealized programs, run from memories that agree on the arguments, end with the same result: the network
    of the launched arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GcnSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Boundary.result_16 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12⟩ := hagree c
    rw [Cert.ReferenceIdeal.RefValue.result_eq m' c, h0, h1, h2, h3, h4, h5, h6, h7, h8, h9, h10, h11, h12]

/-- The three programs run and leave their arguments alone (the reference's frame is its run with the result
    dropped); the ideal pass rewrote nothing in the kernel program; and the two idealized programs agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
